-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1280 : Shape := ⟨2, ![4096, 1280]⟩
abbrev S8192x128 : Shape := ⟨2, ![8192, 128]⟩
abbrev S8192x8192 : Shape := ⟨2, ![8192, 8192]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1280x256 : Shape := ⟨2, ![1280, 256]⟩
abbrev S256x256 : Shape := ⟨2, ![256, 256]⟩
abbrev S_ : Shape := ⟨0, ![]⟩

class Facts : Prop where
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1280x256 : S_.BroadcastsInDim S1280x256 (![] : Fin 0 → Fin S1280x256.rank)
  reducesTo_S1280x256_S_d0_1 : S1280x256.ReducesTo [0, 1] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S1280x256 .f32) (main_arg12 : FVec F S256 .f32) (main_arg13 : FVec F S256x256 .f32) (main_arg14 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1280x256 .f32 := Host.absf main_arg11
  let main_cst_20 : FVec F S_ .f32 := constant S_ .f32 0x7F800000#32
  let main_v55 : FVec F S1280x256 .f32 := broadcastInDim S1280x256 ![] bcast_S_S1280x256 main_cst_20
  let main_v56 : IVec S1280x256 1 := cmpf .olt main_v54 main_v55
  let main_c_21 : IVec S_ 1 := constantI S_ 1 1#1
  let main_v57 : IVec S_ 1 := (fun x v => Host.reduce IntOp.andi x v reducesTo_S1280x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S128x256 .f32) (main_arg8 : FVec F S256 .f32) (main_arg9 : FVec F S256x128 .f32) (main_arg10 : FVec F S128 .f32) (main_arg11 : FVec F S1280x256 .f32) (main_arg12 : FVec F S256 .f32) (main_arg13 : FVec F S256x256 .f32) (main_arg14 : FVec F S256 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S1280x256 .f32) (main_arg12 : FVec F S256 .f32) (main_arg13 : FVec F S256x256 .f32) (main_arg14 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1280 .f32) (main_arg1 : FVec F S8192x128 .f32) (main_arg2 : FVec F S8192x8192 .f32) (main_arg3 : FVec F S128x256 .f32) (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S1280x256 .f32) (main_arg12 : FVec F S256 .f32) (main_arg13 : FVec F S256x256 .f32) (main_arg14 : FVec F S256 .f32) : IVec S_ 1 :=
  let main_v0 : FVec F S4096x1280 .f32 := Host.absf main_arg0
  let main_cst : FVec F S_ .f32 := constant S_ .f32 0x7F800000#32
  let main_v1 : FVec F S4096x1280 .f32 := broadcastInDim S4096x1280 ![] bcast_S_S4096x1280 main_cst
  let main_v2 : IVec S4096x1280 1 := cmpf .olt main_v0 main_v1
  let main_c : IVec S_ 1 := constantI S_ 1 1#1
  let main_v3 : IVec S_ 1 := (fun x v => Host.reduce IntOp.andi x v reducesTo_S4096x1280_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1280 : Shape := ⟨2, ![4096, 1280]⟩
abbrev S8192x128 : Shape := ⟨2, ![8192, 128]⟩
abbrev S8192x8192 : Shape := ⟨2, ![8192, 8192]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1280x256 : Shape := ⟨2, ![1280, 256]⟩
abbrev S256x256 : Shape := ⟨2, ![256, 256]⟩
abbrev S1x256 : Shape := ⟨2, ![1, 256]⟩
abbrev S1x128 : Shape := ⟨2, ![1, 128]⟩
abbrev S8192x256 : Shape := ⟨2, ![8192, 256]⟩
abbrev S1024x128 : Shape := ⟨2, ![1024, 128]⟩
abbrev S1024x256 : Shape := ⟨2, ![1024, 256]⟩
abbrev S4096x256 : Shape := ⟨2, ![4096, 256]⟩
abbrev S1024x1280 : Shape := ⟨2, ![1024, 1280]⟩
abbrev S256x8192 : Shape := ⟨2, ![256, 8192]⟩
abbrev S4096x8192 : Shape := ⟨2, ![4096, 8192]⟩

abbrev nBuf : Space → Nat
  | .hbm => 27
  | .vmem => 37
  | .smem => 0
  | _ => 0

abbrev bufTy : (tb : Table) → Fin (tcTables nBuf tb) → BufTy
  | .hbm, ⟨0, _⟩ => ⟨S4096x1280, .f32⟩
  | .hbm, ⟨1, _⟩ => ⟨S8192x128, .f32⟩
  | .hbm, ⟨2, _⟩ => ⟨S8192x8192, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1280x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x256, .f32⟩
  | .hbm, ⟨16, _⟩ => ⟨S1x128, .f32⟩
  | .hbm, ⟨17, _⟩ => ⟨S1x256, .f32⟩
  | .hbm, ⟨18, _⟩ => ⟨S1x128, .f32⟩
  | .hbm, ⟨19, _⟩ => ⟨S1x256, .f32⟩
  | .hbm, ⟨20, _⟩ => ⟨S1x256, .f32⟩
  | .hbm, ⟨21, _⟩ => ⟨S8192x128, .f32⟩
  | .hbm, ⟨22, _⟩ => ⟨S8192x256, .f32⟩
  | .hbm, ⟨23, _⟩ => ⟨S4096x256, .f32⟩
  | .hbm, ⟨24, _⟩ => ⟨S8192x128, .f32⟩
  | .hbm, ⟨25, _⟩ => ⟨S8192x128, .f32⟩
  | .hbm, ⟨26, _⟩ => ⟨S4096x8192, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S128x256, .f32⟩
  | .local _ .vmem, ⟨7, _⟩ => ⟨S1024x128, .f32⟩
  | .local _ .vmem, ⟨8, _⟩ => ⟨S1024x128, .f32⟩
  | .local _ .vmem, ⟨9, _⟩ => ⟨S1024x256, .f32⟩
  | .local _ .vmem, ⟨10, _⟩ => ⟨S1024x256, .f32⟩
  | .local _ .vmem, ⟨11, _⟩ => ⟨S1024x1280, .f32⟩
  | .local _ .vmem, ⟨12, _⟩ => ⟨S1024x1280, .f32⟩
  | .local _ .vmem, ⟨13, _⟩ => ⟨S1280x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S1024x256, .f32⟩
  | .local _ .vmem, ⟨18, _⟩ => ⟨S1024x256, .f32⟩
  | .local _ .vmem, ⟨19, _⟩ => ⟨S256x8192, .f32⟩
  | .local _ .vmem, ⟨20, _⟩ => ⟨S256x8192, .f32⟩
  | .local _ .vmem, ⟨21, _⟩ => ⟨S8192x256, .f32⟩
  | .local _ .vmem, ⟨22, _⟩ => ⟨S1x256, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x8192, .f32⟩
  | .local _ .vmem, ⟨27, _⟩ => ⟨S256x8192, .f32⟩
  | .local _ .vmem, ⟨28, _⟩ => ⟨S8192x128, .f32⟩
  | .local _ .vmem, ⟨29, _⟩ => ⟨S1x128, .f32⟩
  | .local _ .vmem, ⟨30, _⟩ => ⟨S256x128, .f32⟩
  | .local _ .vmem, ⟨31, _⟩ => ⟨S256x128, .f32⟩
  | .local _ .vmem, ⟨32, _⟩ => ⟨S4096x256, .f32⟩
  | .local _ .vmem, ⟨33, _⟩ => ⟨S256x128, .f32⟩
  | .local _ .vmem, ⟨34, _⟩ => ⟨S256x128, .f32⟩
  | .local _ .vmem, ⟨35, _⟩ => ⟨S4096x256, .f32⟩
  | .local _ .vmem, ⟨36, _⟩ => ⟨S4096x256, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S4096x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4096x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S256_S1x256 : S256.ShapeCasts S1x256
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x256_S1024x256_0_0 : ∀ a, (![0, 0] : Fin 2 → Nat) a + S1024x256.size a ≤ S1024x256.size a
  h_S1024x256 : 0 < S1024x256.numel
  inb_S1024x1280_S1024x1280_0_0 : ∀ a, (![0, 0] : Fin 2 → Nat) a + S1024x1280.size a ≤ S1024x1280.size a
  h_S1024x1280 : 0 < S1024x1280.numel
  inb_S1280x256_S1280x256_0_0 : ∀ a, (![0, 0] : Fin 2 → Nat) a + S1280x256.size a ≤ S1280x256.size a
  h_S1280x256 : 0 < S1280x256.numel
  inb_S256x256_S256x256_0_0 : ∀ a, (![0, 0] : Fin 2 → Nat) a + S256x256.size a ≤ S256x256.size a
  h_S256x256 : 0 < S256x256.numel
  inb_S256x8192_S256x8192_0_0 : ∀ a, (![0, 0] : Fin 2 → Nat) a + S256x8192.size a ≤ S256x8192.size a
  h_S256x8192 : 0 < S256x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S1x256_S256x256 : S1x256.Broadcasts S256x256
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x128_S256x128 : S1x128.Broadcasts S256x128
  shapeCasts_S256x128_S256x128 : S256x128.ShapeCasts S256x128
  concatenates_S256x128_S256x128_S256x256_d1 : Shape.Concatenates [S256x128, S256x128] S256x256 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x1280_S1280x256_S1024x256_1_0_0_1_n_n_wf : DotDims.WF S1024x1280 S1280x256 S1024x256 [1] [0] [0] [1] [] []
  dot_S1024x256_S256x256_S1024x256_1_0_0_1_n_n_wf : DotDims.WF S1024x256 S256x256 S1024x256 [1] [0] [0] [1] [] []
  dot_S256x8192_S8192x256_S256x256_1_0_0_1_n_n_wf : DotDims.WF S256x8192 S8192x256 S256x256 [1] [0] [0] [1] [] []
  dot_S256x256_S256x128_S256x128_1_0_0_1_n_n_wf : DotDims.WF S256x256 S256x128 S256x128 [1] [0] [0] [1] [] []
  dot_S256x8192_S8192x128_S256x128_1_0_0_1_n_n_wf : DotDims.WF S256x8192 S8192x128 S256x128 [1] [0] [0] [1] [] []
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .f32 = 32 ∨ (Rect.block (s := S8192x256) S1024x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1280.size a ≤ S4096x1280.size a
  hwx1_0 : ∀ i : grid1.Coords, EltTy.bits .f32 = 32 ∨ (Rect.block (s := S4096x1280) S1024x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x256.size a ≤ S1280x256.size a
  hwx1_1 : ∀ i : grid1.Coords, EltTy.bits .f32 = 32 ∨ (Rect.block (s := S1280x256) S1280x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S4096x256.size a
  hwx1_5 : ∀ i : grid1.Coords, EltTy.bits .f32 = 32 ∨ (Rect.block (s := S4096x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S8192x128.size a
  hwx2_4 : ∀ i : grid2.Coords, EltTy.bits .f32 = 32 ∨ (Rect.block (s := S8192x128) S256x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .f32 = 32 ∨ (Rect.block (s := S8192x8192) S256x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .f32 = 32 ∨ (Rect.block (s := S8192x128) S8192x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S8192x128.size a
  hwx3_3 : ∀ i : grid3.Coords, EltTy.bits .f32 = 32 ∨ (Rect.block (s := S8192x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4096x256.size a ≤ S4096x256.size a
  hwx3_4 : ∀ i : grid3.Coords, EltTy.bits .f32 = 32 ∨ (Rect.block (s := S4096x256) S4096x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S8192x128.size a
  hwx3_5 : ∀ i : grid3.Coords, EltTy.bits .f32 = 32 ∨ (Rect.block (s := S8192x128) S256x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x256.size a ≤ S4096x8192.size a
  hwx3_6 : ∀ i : grid3.Coords, EltTy.bits .f32 = 32 ∨ (Rect.block (s := S4096x8192) S4096x256.size (cc3_transform_6 i) (hinb3_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1280_S1280x256_S1024x256_1_0_0_1_n_n : DotDims S1024x1280 S1280x256 S1024x256 where
  lhsContracting := [1]
  rhsContracting := [0]
  lhsNonContracting := [0]
  rhsNonContracting := [1]
  lhsBatch := []
  rhsBatch := []
  wf := dot_S1024x1280_S1280x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S1280x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg2) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6_0) S256x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7) S4096x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9_0) S256x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v9_1) S4096x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4096x1280 : Shape := ⟨2, ![4096, 1280]⟩
abbrev S8192x128 : Shape := ⟨2, ![8192, 128]⟩
abbrev S8192x8192 : Shape := ⟨2, ![8192, 8192]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1280x256 : Shape := ⟨2, ![1280, 256]⟩
abbrev S256x256 : Shape := ⟨2, ![256, 256]⟩
abbrev S8192x256 : Shape := ⟨2, ![8192, 256]⟩
abbrev S1x256 : Shape := ⟨2, ![1, 256]⟩
abbrev S_ : Shape := ⟨0, ![]⟩
abbrev S1x128 : Shape := ⟨2, ![1, 128]⟩
abbrev S4096x256 : Shape := ⟨2, ![4096, 256]⟩
abbrev S256x8192 : Shape := ⟨2, ![256, 8192]⟩
abbrev S4096x8192 : Shape := ⟨2, ![4096, 8192]⟩

abbrev nBuf : Space → Nat
  | .hbm => 64
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S8192x128, .f32⟩
  | .hbm, ⟨2, _⟩ => ⟨S8192x8192, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1280x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S8192x128, .f32⟩
  | .hbm, ⟨35, _⟩ => ⟨S8192x128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S1x256, .f32⟩
  | .hbm, ⟨51, _⟩ => ⟨S4096x256, .f32⟩
  | .hbm, ⟨52, _⟩ => ⟨S4096x256, .f32⟩
  | .hbm, ⟨53, _⟩ => ⟨S8192x256, .f32⟩
  | .hbm, ⟨54, _⟩ => ⟨S256x8192, .f32⟩
  | .hbm, ⟨55, _⟩ => ⟨S4096x8192, .f32⟩
  | .hbm, ⟨56, _⟩ => ⟨S4096x8192, .f32⟩
  | .hbm, ⟨57, _⟩ => ⟨S4096x8192, .f32⟩
  | .hbm, ⟨58, _⟩ => ⟨S_, .f32⟩
  | .hbm, ⟨59, _⟩ => ⟨S4096x8192, .f32⟩
  | .hbm, ⟨60, _⟩ => ⟨S4096x8192, .f32⟩
  | .hbm, ⟨61, _⟩ => ⟨S_, .f32⟩
  | .hbm, ⟨62, _⟩ => ⟨S4096x8192, .f32⟩
  | .hbm, ⟨63, _⟩ => ⟨S4096x8192, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S8192x128_S8192x128_S8192x256_d1 : Shape.Concatenates [S8192x128, S8192x128] S8192x256 1
  transposes_S8192x256_S256x8192_1_0 : S8192x256.Transposes [1, 0] S256x8192
  bcast_S_S4096x8192 : S_.BroadcastsInDim S4096x8192 (![] : Fin 0 → Fin S4096x8192.rank)
  dot_S8192x128_S128x256_S8192x256_1_0_0_1_n_n_wf : DotDims.WF S8192x128 S128x256 S8192x256 [1] [0] [0] [1] [] []
  dot_S8192x256_S256x128_S8192x128_1_0_0_1_n_n_wf : DotDims.WF S8192x256 S256x128 S8192x128 [1] [0] [0] [1] [] []
  dot_S8192x8192_S8192x256_S8192x256_1_0_0_1_n_n_wf : DotDims.WF S8192x8192 S8192x256 S8192x256 [1] [0] [0] [1] [] []
  dot_S8192x8192_S8192x128_S8192x128_1_0_0_1_n_n_wf : DotDims.WF S8192x8192 S8192x128 S8192x128 [1] [0] [0] [1] [] []
  dot_S4096x1280_S1280x256_S4096x256_1_0_0_1_n_n_wf : DotDims.WF S4096x1280 S1280x256 S4096x256 [1] [0] [0] [1] [] []
  dot_S4096x256_S256x256_S4096x256_1_0_0_1_n_n_wf : DotDims.WF S4096x256 S256x256 S4096x256 [1] [0] [0] [1] [] []
  dot_S4096x256_S256x8192_S4096x8192_1_0_0_1_n_n_wf : DotDims.WF S4096x256 S256x8192 S4096x8192 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S4096x1280_S1280x256_S4096x256_1_0_0_1_n_n : DotDims S4096x1280 S1280x256 S4096x256 where
  lhsContracting := [1]
  rhsContracting := [0]
  lhsNonContracting := [0]
  rhsNonContracting := [1]
  lhsBatch := []
  rhsBatch := []
  wf := dot_S4096x1280_S1280x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibAffine.lean ====
/-
  A dense layer over the extended reals, for any extents: X · Wt + b with X an [M, K] array, Wt the [K, N]
  (already transposed) weights and b a bias vector of length N — entry (p, n) is ∑ k, X (p, k) · Wt (k, n) + b n —,
  optionally floored at a scalar z (the rectifier when z is zero). Two spellings of it on the host are read at an
  entry: the product followed by the bias vector broadcast first to a [1, N] row and then down the rows, and the same
  floored at a broadcast scalar constant. Also the bias vector recast as a [1, N] row, read at an entry.
  No entry needs to be finite: only the definitions of the operations are used, no law of arithmetic.
-/
import proofs.«109707_g57251914055972_cont_9to1_m_423_2_alg».proof.Proof.LibDenseEntry
import Idealize.ShloMosaic.PureOps.Ideal.Laws
import Idealize.ShloMosaic.Lib.ValueIdx
import Idealize.ShloMosaic.Lib.ValueLayout
import Idealize.ShloMosaic.Lib.Pipeline.Value

noncomputable section

namespace Cert.LibAffine

open Idealize.ShloMosaic Idealize.ShloMosaic.ValueIdx

variable {M K N : ℕ}

/-- X · Wt + b at entry (p, n): ∑ k, X (p, k) · Wt (k, n) + b n. -/
def affine (X : (⟨2, ![M, K]⟩ : Shape).Idx → EReal) (Wt : (⟨2, ![K, N]⟩ : Shape).Idx → EReal)
    (b : (⟨1, ![N]⟩ : Shape).Idx → EReal) : (⟨2, ![M, N]⟩ : Shape).Idx → EReal :=
  fun i => (∑ k : Fin K, X (ix2 (n0 := M) (i 0) k) * Wt (ix2 (n1 := N) k (i 1))) + b (ix1 (n := N) (i 1))

/-- The same floored at `z`: max (X · Wt + b, z) entry by entry. -/
def affineFloor (z : EReal) (X : (⟨2, ![M, K]⟩ : Shape).Idx → EReal) (Wt : (⟨2, ![K, N]⟩ : Shape).Idx → EReal)
    (b : (⟨1, ![N]⟩ : Shape).Idx → EReal) : (⟨2, ![M, N]⟩ : Shape).Idx → EReal :=
  fun i => max (affine X Wt b i) z

theorem affine_ix2 (X : (⟨2, ![M, K]⟩ : Shape).Idx → EReal) (Wt : (⟨2, ![K, N]⟩ : Shape).Idx → EReal)
    (b : (⟨1, ![N]⟩ : Shape).Idx → EReal) (p : Fin M) (n : Fin N) :
    affine X Wt b (ix2 p n) = (∑ k : Fin K, X (ix2 p k) * Wt (ix2 k n)) + b (ix1 n) := rfl

theorem affineFloor_ix2 (z : EReal) (X : (⟨2, ![M, K]⟩ : Shape).Idx → EReal) (Wt : (⟨2, ![K, N]⟩ : Shape).Idx → EReal)
    (b : (⟨1, ![N]⟩ : Shape).Idx → EReal) (p : Fin M) (n : Fin N) :
    affineFloor z X Wt b (ix2 p n) = max ((∑ k : Fin K, X (ix2 p k) * Wt (ix2 k n)) + b (ix1 n)) z := rfl

/-- The layer with its bias given as a [1, N] row: entry (p, n) is ∑ k, X (p, k) · Wt (k, n) + r (0, n). -/
def rowAffine (X : (⟨2, ![M, K]⟩ : Shape).Idx → EReal) (Wt : (⟨2, ![K, N]⟩ : Shape).Idx → EReal)
    (r : (⟨2, ![1, N]⟩ : Shape).Idx → EReal) : (⟨2, ![M, N]⟩ : Shape).Idx → EReal :=
  fun i => (∑ k : Fin K, X (ix2 (n0 := M) (i 0) k) * Wt (ix2 (n1 := N) k (i 1))) + r (ix2 (0 : Fin 1) (n1 := N) (i 1))

/-- The same floored at `z`. -/
def rowAffineFloor (z : EReal) (X : (⟨2, ![M, K]⟩ : Shape).Idx → EReal) (Wt : (⟨2, ![K, N]⟩ : Shape).Idx → EReal)
    (r : (⟨2, ![1, N]⟩ : Shape).Idx → EReal) : (⟨2, ![M, N]⟩ : Shape).Idx → EReal :=
  fun i => max (rowAffine X Wt r i) z

theorem rowAffine_ix2 (X : (⟨2, ![M, K]⟩ : Shape).Idx → EReal) (Wt : (⟨2, ![K, N]⟩ : Shape).Idx → EReal)
    (r : (⟨2, ![1, N]⟩ : Shape).Idx → EReal) (p : Fin M) (n : Fin N) :
    rowAffine X Wt r (ix2 p n) = (∑ k : Fin K, X (ix2 p k) * Wt (ix2 k n)) + r (ix2 (0 : Fin 1) n) := rfl

theorem rowAffineFloor_ix2 (z : EReal) (X : (⟨2, ![M, K]⟩ : Shape).Idx → EReal) (Wt : (⟨2, ![K, N]⟩ : Shape).Idx → EReal)
    (r : (⟨2, ![1, N]⟩ : Shape).Idx → EReal) (p : Fin M) (n : Fin N) :
    rowAffineFloor z X Wt r (ix2 p n) = max ((∑ k : Fin K, X (ix2 p k) * Wt (ix2 k n)) + r (ix2 (0 : Fin 1) n)) z := rfl

/-- A vector of length N broadcast to a [1, N] row (its one axis sent to axis 1) reads, at (0, n), the vector at n. -/
theorem row_of_vec_apply {α : Type} (b : (⟨1, ![N]⟩ : Shape).Idx → α)
    (h : (⟨1, ![N]⟩ : Shape).BroadcastsInDim ⟨2, ![1, N]⟩ ![1]) (u : Fin 1) (n : Fin N) :
    broadcastInDim ⟨2, ![1, N]⟩ ![1] h b (ix2 u n) = b (ix1 n) :=
  broadcastInDim_apply _ h b (ix2 u n) (ix1 n) (fun a => match a with
    | ⟨0, _⟩ => by
        show n.val = if N = 1 then 0 else n.val
        split
        · have := n.isLt; omega
        · rfl)

/-- A [1, N] row broadcast down M rows reads, at (p, n), the row at (0, n). -/
theorem rows_of_row_apply {α : Type} (r : (⟨2, ![1, N]⟩ : Shape).Idx → α)
    (h : (⟨2, ![1, N]⟩ : Shape).BroadcastsInDim ⟨2, ![M, N]⟩ ![0, 1]) (p : Fin M) (n : Fin N) :
    broadcastInDim ⟨2, ![M, N]⟩ ![0, 1] h r (ix2 p n) = r (ix2 (0 : Fin 1) n) :=
  broadcastInDim_apply _ h r (ix2 p n) (ix2 (0 : Fin 1) n) (fun a => match a with
    | ⟨0, _⟩ => by
        show 0 = if (1 : ℕ) = 1 then 0 else p.val
        rw [if_pos rfl]
    | ⟨1, _⟩ => by
        show n.val = if N = 1 then 0 else n.val
        split
        · have := n.isLt; omega
        · rfl)

/-- A vector of length N recast as a [1, N] row reads, at (0, n), the vector at n. -/
theorem row_cast_apply {α : Type} (b : (⟨1, ![N]⟩ : Shape).Idx → α)
    (h : (⟨1, ![N]⟩ : Shape).ShapeCasts ⟨2, ![1, N]⟩) (u : Fin 1) (n : Fin N) :
    shapeCast ⟨2, ![1, N]⟩ b h (ix2 u n) = b (ix1 n) :=
  shapeCast_apply b h _ _ (by
    rw [Shape.rowMajor_val_two, Shape.rowMajor_val_one]
    show n.val = u.val * N + n.val
    have := u.isLt
    have hu : u.val = 0 := by omega
    rw [hu]; omega)

/-- With the bias row a recast vector, the row form is `affine` of the vector. -/
theorem rowAffine_cast (X : (⟨2, ![M, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    rowAffine X Wt (shapeCast ⟨2, ![1, N]⟩ b h) = affine X Wt b := by
  funext i
  obtain ⟨p, n, rfl⟩ : ∃ (p : Fin M) (n : Fin N), i = ix2 p n := ⟨i 0, i 1, eq_ix2 i⟩
  rw [rowAffine_ix2, affine_ix2, row_cast_apply]

/-- The same for the floored layer. -/
theorem rowAffineFloor_cast (z : EReal) (X : (⟨2, ![M, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    rowAffineFloor z X Wt (shapeCast ⟨2, ![1, N]⟩ b h) = affineFloor z X Wt b := by
  funext i
  show max (rowAffine X Wt (shapeCast ⟨2, ![1, N]⟩ b h) i) z = max (affine X Wt b i) z
  rw [rowAffine_cast]

/-- The host's dense layer — the product, plus the bias vector made a row and broadcast down the rows — is `affine`. -/
theorem host_affine (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (X : FVec Ideal ⟨2, ![M, K]⟩ .f32) (Wt : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1]) :
    addf (Host.dotGeneral (F := Ideal) d prec X Wt) (broadcastInDim ⟨2, ![M, N]⟩ ![0, 1] hb (broadcastInDim ⟨2, ![1, N]⟩ ![1] hr b))
      = affine X Wt b := by
  funext i
  obtain ⟨p, n, rfl⟩ : ∃ (p : Fin M) (n : Fin N), i = ix2 p n := ⟨i 0, i 1, eq_ix2 i⟩
  rw [affine_ix2]
  show Host.dotGeneral (F := Ideal) d prec X Wt (ix2 p n) + broadcastInDim ⟨2, ![M, N]⟩ ![0, 1] hb (broadcastInDim ⟨2, ![1, N]⟩ ![1] hr b) (ix2 p n) = _
  rw [rows_of_row_apply, row_of_vec_apply]
  simp only [Host.dotGeneral]
  rw [Cert.LibDenseEntry.dotGeneral_plain_apply d h1 h2 h3 h4 h5 h6]

/-- The same floored at a broadcast scalar constant is `affineFloor` at that constant's value. -/
theorem host_affineFloor (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (X : FVec Ideal ⟨2, ![M, K]⟩ .f32) (Wt : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1])
    (hz : (⟨0, ![]⟩ : Shape).BroadcastsInDim ⟨2, ![M, N]⟩ ![]) (zb : BitVec 32) :
    maximumf (addf (Host.dotGeneral (F := Ideal) d prec X Wt) (broadcastInDim ⟨2, ![M, N]⟩ ![0, 1] hb (broadcastInDim ⟨2, ![1, N]⟩ ![1] hr b)))
        (broadcastInDim ⟨2, ![M, N]⟩ ![] hz (constant (F := Ideal) ⟨0, ![]⟩ .f32 zb))
      = affineFloor (Ideal.ofBits .f32 zb) X Wt b := by
  rw [host_affine d h1 h2 h3 h4 h5 h6]
  funext i
  show max (affine X Wt b i) (broadcastInDim ⟨2, ![M, N]⟩ ![] hz (constant (F := Ideal) ⟨0, ![]⟩ .f32 zb) i) = max (affine X Wt b i) (Ideal.ofBits .f32 zb)
  rw [broadcastInDim_apply _ hz (constant (F := Ideal) ⟨0, ![]⟩ .f32 zb) i ix0 (fun a => a.elim0)]
  rfl

end Cert.LibAffine

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.LibTransposedDense.lean ====
/-
  A layer with two dense maps against TRANSPOSED weights, entry by entry, over the extended reals (any extents).

  For node features X (M rows of K numbers), the neighbour means A of the same shape, two weight matrices Wn, Ws
  (N rows of K numbers each) and two bias vectors bn, bs of length N, entry (p, q) of the layer is

      ∑ k, A(p, k) · Wn(q, k)  +  ∑ k, X(p, k) · Ws(q, k)  +  bn(q)  +  bs(q),

  optionally floored at zero.  Both products are against the TRANSPOSED weights: row p of the features with row q of
  the weights.  This file states that entry, shows that a product into a zero accumulator on the matrix unit and the
  host's product compute such a row-by-row sum when the weights are transposed first, reads a bias row spread over all
  rows, and records the one regrouping of the four summands that is needed: addition of extended reals is commutative
  and associative, so no finiteness is asked of anything.
-/
import Idealize.ShloMosaic.PureOps.Ideal.Laws
import Idealize.ShloMosaic.Lib.ValueIdx
import Idealize.ShloMosaic.Lib.ValueLayout
import Idealize.ShloMosaic.Lib.Pipeline.Value
import proofs.«109707_g57251914055972_cont_9to1_m_423_2_alg».proof.Proof.LibDenseEntry
import proofs.«109707_g57251914055972_cont_9to1_m_423_2_alg».proof.Proof.LibSpreadRow

noncomputable section

namespace Cert.LibTransposedDense

open Idealize.ShloMosaic Idealize.ShloMosaic.ValueIdx

variable {M K N : ℕ}

/-- Row p of A against row q of W: ∑ k, A(p, k) · W(q, k). -/
def rowDot (A : (⟨2, ![M, K]⟩ : Shape).Idx → EReal) (W : (⟨2, ![N, K]⟩ : Shape).Idx → EReal) (p : Fin M) (q : Fin N) : EReal :=
  ∑ k : Fin K, A (ix2 p k) * W (ix2 q k)

/-- The layer before any flooring, at entry (p, q): neighbour term, self term, then the two biases in turn. -/
def affineAt (A X : (⟨2, ![M, K]⟩ : Shape).Idx → EReal) (Wn Ws : (⟨2, ![N, K]⟩ : Shape).Idx → EReal)
    (bn bs : (⟨1, ![N]⟩ : Shape).Idx → EReal) (p : Fin M) (q : Fin N) : EReal :=
  rowDot A Wn p q + rowDot X Ws p q + bn (ix1 q) + bs (ix1 q)

/-- The layer without flooring, as a whole array. -/
def affine (A X : (⟨2, ![M, K]⟩ : Shape).Idx → EReal) (Wn Ws : (⟨2, ![N, K]⟩ : Shape).Idx → EReal)
    (bn bs : (⟨1, ![N]⟩ : Shape).Idx → EReal) : (⟨2, ![M, N]⟩ : Shape).Idx → EReal :=
  fun i => affineAt A X Wn Ws bn bs (i 0) (i 1)

/-- The layer floored at zero (the zero is kept as the float word it is printed as), as a whole array. -/
def floored (A X : (⟨2, ![M, K]⟩ : Shape).Idx → EReal) (Wn Ws : (⟨2, ![N, K]⟩ : Shape).Idx → EReal)
    (bn bs : (⟨1, ![N]⟩ : Shape).Idx → EReal) : (⟨2, ![M, N]⟩ : Shape).Idx → EReal :=
  fun i => max (affineAt A X Wn Ws bn bs (i 0) (i 1)) (Ideal.ofBits .f32 0x00000000#32)

theorem affine_ix2 (A X : (⟨2, ![M, K]⟩ : Shape).Idx → EReal) (Wn Ws : (⟨2, ![N, K]⟩ : Shape).Idx → EReal)
    (bn bs : (⟨1, ![N]⟩ : Shape).Idx → EReal) (p : Fin M) (q : Fin N) :
    affine A X Wn Ws bn bs (ix2 p q) = affineAt A X Wn Ws bn bs p q := rfl

theorem floored_ix2 (A X : (⟨2, ![M, K]⟩ : Shape).Idx → EReal) (Wn Ws : (⟨2, ![N, K]⟩ : Shape).Idx → EReal)
    (bn bs : (⟨1, ![N]⟩ : Shape).Idx → EReal) (p : Fin M) (q : Fin N) :
    floored A X Wn Ws bn bs (ix2 p q) = max (affineAt A X Wn Ws bn bs p q) (Ideal.ofBits .f32 0x00000000#32) := rfl

/-- The same four summands with the first bias added before the self term: equal, because addition of extended
    reals is commutative and associative. -/
theorem affineAt_regroup (A X : (⟨2, ![M, K]⟩ : Shape).Idx → EReal) (Wn Ws : (⟨2, ![N, K]⟩ : Shape).Idx → EReal)
    (bn bs : (⟨1, ![N]⟩ : Shape).Idx → EReal) (p : Fin M) (q : Fin N) :
    rowDot A Wn p q + bn (ix1 q) + rowDot X Ws p q + bs (ix1 q) = affineAt A X Wn Ws bn bs p q := by
  unfold affineAt
  rw [add_right_comm (rowDot A Wn p q) (bn (ix1 q)) (rowDot X Ws p q)]

/-- On the matrix unit: features times the transposed weights into a zero accumulator is the row-by-row sum. -/
theorem matmul_transposed_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hT : (⟨2, ![N, K]⟩ : Shape).Transposes [1, 0] ⟨2, ![K, N]⟩)
    (a : FVec Ideal ⟨2, ![M, K]⟩ φ₁) (w : FVec Ideal ⟨2, ![N, K]⟩ φ₂) (p : Fin M) (q : Fin N) :
    matmul d prec a (transpose ⟨2, ![K, N]⟩ [1, 0] w hT) (constant ⟨2, ![M, N]⟩ .f32 0x00000000#32) (ix2 p q)
      = rowDot a w p q := by
  refine (Cert.LibDenseEntry.matmul_plain_zero_apply d h1 h2 h3 h4 h5 h6 prec a _ p q).trans ?_
  unfold rowDot
  exact Finset.sum_congr rfl fun k _ => congrArg (a (ix2 p k) * ·) (transpose_ix2_apply w hT k q)

/-- On the host: features times the transposed weights is the same row-by-row sum. -/
theorem dotGeneral_transposed_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hT : (⟨2, ![N, K]⟩ : Shape).Transposes [1, 0] ⟨2, ![K, N]⟩)
    (a : FVec Ideal ⟨2, ![M, K]⟩ φ₁) (w : FVec Ideal ⟨2, ![N, K]⟩ φ₂) (p : Fin M) (q : Fin N) :
    Host.dotGeneral d prec a (transpose ⟨2, ![K, N]⟩ [1, 0] w hT) (ix2 p q) = rowDot a w p q := by
  refine (Cert.LibDenseEntry.dotGeneral_plain_apply d h1 h2 h3 h4 h5 h6 prec .single a _ p q).trans ?_
  unfold rowDot
  exact Finset.sum_congr rfl fun k _ => congrArg (a (ix2 p k) * ·) (transpose_ix2_apply w hT k q)

/-- A [1, N] row spread over M rows reads, at (p, q), the row at (0, q). -/
theorem row_spread_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) := by
  refine broadcastTo_apply b h (ix2 p q) (ix2 0 q) fun a => ?_
  match a with
  | ⟨0, _⟩ => show (0 : ℕ) = if (1 : ℕ) = 1 then 0 else p.val; rfl
  | ⟨1, _⟩ =>
    show q.val = if N = 1 then 0 else q.val
    split
    · have := q.isLt; omega
    · rfl

end Cert.LibTransposedDense

end
-- ==== Proof.NetSpec.lean ====
/-
  Dense layers of a two-branch graph network over the extended reals, entry by entry, for any extents.

  All arrays are rank 2. A dense layer with its bias given as a [1, N] row sends X to X · W + r, entry (p, n) being
  ∑ k, X (p, k) · W (k, n) + r (0, n); the rectified layer floors that at zero. This file names the compositions the
  network is made of — two layers in a row, a rectified layer followed by a plain product, the plain product itself,
  the joining of two arrays side by side, and the logistic scores of one array's rows against another's rows — and
  records the one structural fact the comparison rests on: each of them reads its first operand ONE ROW AT A TIME.
  Taking some rows of the first operand and then applying the composition is applying it and then taking the same rows
  (for the scores: taking rows of the second operand takes the same columns of the result). No law of arithmetic is
  used, so no entry needs to be finite.
-/
import proofs.«109707_g57251914055972_cont_9to1_m_423_2_alg».proof.Proof.LibAffine
import proofs.«109707_g57251914055972_cont_9to1_m_423_2_alg».proof.Proof.LibTransposedDense
import Idealize.ShloMosaic.PureOps.Ideal.Laws
import Idealize.ShloMosaic.Lib.ValueIdx
import Idealize.ShloMosaic.Lib.Pipeline.Value

noncomputable section

namespace Cert.Net

open Idealize.ShloMosaic Idealize.ShloMosaic.ValueIdx
open Cert.LibAffine (rowAffine rowAffineFloor)
open Cert.LibTransposedDense (rowDot)

/-- An [m, n] array of extended reals. -/
abbrev Arr (m n : ℕ) : Type := (⟨2, ![m, n]⟩ : Shape).Idx → EReal

/-- The rectifier's floor: zero, kept as the float word it is printed as. -/
abbrev zero : EReal := Ideal.ofBits .f32 0x00000000#32

variable {M Mb K J N N2 : ℕ}

/-- The plain product X · W: entry (p, n) is ∑ k, X (p, k) · W (k, n). -/
def prod (X : Arr M K) (W : Arr K N) : Arr M N :=
  fun i => ∑ k : Fin K, X (ix2 (n0 := M) (i 0) k) * W (ix2 (n1 := N) k (i 1))

theorem prod_ix2 (X : Arr M K) (W : Arr K N) (p : Fin M) (n : Fin N) :
    prod X W (ix2 p n) = ∑ k : Fin K, X (ix2 p k) * W (ix2 k n) := rfl

/-- Two dense layers in a row, the first rectified: max (X · W1 + r1, 0) · W2 + r2. -/
def twoLayer (X : Arr M K) (W1 : Arr K J) (r1 : Arr 1 J) (W2 : Arr J N) (r2 : Arr 1 N) : Arr M N :=
  rowAffine (rowAffineFloor zero X W1 r1) W2 r2

/-- A rectified dense layer followed by a plain product: max (X · W1 + r1, 0) · W2. -/
def hiddenProd (X : Arr M K) (W1 : Arr K J) (r1 : Arr 1 J) (W2 : Arr J N) : Arr M N :=
  prod (rowAffineFloor zero X W1 r1) W2

/-- Logistic scores of the rows of S against the rows of C: entry (p, q) is logistic (∑ k, S (p, k) · C (q, k)). -/
def scores (S : Arr M K) (C : Arr N K) : Arr M N :=
  fun i => Ideal.logistic (rowDot S C (i 0) (i 1))

theorem scores_ix2 (S : Arr M K) (C : Arr N K) (p : Fin M) (q : Fin N) :
    scores S C (ix2 p q) = Ideal.logistic (rowDot S C p q) := rfl

/-- Two [M, N] arrays side by side: an [M, N2] array (N2 = N + N, as the hypothesis says). -/
def join (h : Shape.Concatenates [⟨2, ![M, N]⟩, ⟨2, ![M, N]⟩] ⟨2, ![M, N2]⟩ 1) (a b : Arr M N) : Arr M N2 :=
  concatenate ⟨2, ![M, N2]⟩ 1 [⟨⟨2, ![M, N]⟩, a⟩, ⟨⟨2, ![M, N]⟩, b⟩] h

/-- The rows f 0, f 1, … of an array. -/
def rows (f : Fin Mb → Fin M) (X : Arr M K) : Arr Mb K := fun i => X (ix2 (f (i 0)) (i 1))

/-- The columns f 0, f 1, … of an array. -/
def cols (f : Fin Mb → Fin M) (X : Arr K M) : Arr K Mb := fun i => X (ix2 (i 0) (f (i 1)))

theorem rows_ix2 (f : Fin Mb → Fin M) (X : Arr M K) (p : Fin Mb) (k : Fin K) : rows f X (ix2 p k) = X (ix2 (f p) k) := rfl
theorem cols_ix2 (f : Fin Mb → Fin M) (X : Arr K M) (k : Fin K) (p : Fin Mb) : cols f X (ix2 k p) = X (ix2 k (f p)) := rfl

/-! ## Each composition reads its first operand one row at a time -/

theorem rows_rowAffine (f : Fin Mb → Fin M) (X : Arr M K) (W : Arr K N) (r : Arr 1 N) :
    rowAffine (rows f X) W r = rows f (rowAffine X W r) := rfl

theorem rows_rowAffineFloor (f : Fin Mb → Fin M) (z : EReal) (X : Arr M K) (W : Arr K N) (r : Arr 1 N) :
    rowAffineFloor z (rows f X) W r = rows f (rowAffineFloor z X W r) := rfl

theorem rows_prod (f : Fin Mb → Fin M) (X : Arr M K) (W : Arr K N) : prod (rows f X) W = rows f (prod X W) := rfl

theorem rows_twoLayer (f : Fin Mb → Fin M) (X : Arr M K) (W1 : Arr K J) (r1 : Arr 1 J) (W2 : Arr J N) (r2 : Arr 1 N) :
    twoLayer (rows f X) W1 r1 W2 r2 = rows f (twoLayer X W1 r1 W2 r2) := rfl

theorem rows_hiddenProd (f : Fin Mb → Fin M) (X : Arr M K) (W1 : Arr K J) (r1 : Arr 1 J) (W2 : Arr J N) :
    hiddenProd (rows f X) W1 r1 W2 = rows f (hiddenProd X W1 r1 W2) := rfl

/-- Scores against some rows of C are the matching columns of the scores against C. -/
theorem scores_rows (f : Fin Mb → Fin N) (S : Arr M K) (C : Arr N K) : scores S (rows f C) = cols f (scores S C) := rfl

/-- Joining side by side and taking rows commute. -/
theorem rows_join (f : Fin Mb → Fin M) (h : Shape.Concatenates [⟨2, ![M, N]⟩, ⟨2, ![M, N]⟩] ⟨2, ![M, N2]⟩ 1)
    (h' : Shape.Concatenates [⟨2, ![Mb, N]⟩, ⟨2, ![Mb, N]⟩] ⟨2, ![Mb, N2]⟩ 1) (a b : Arr M N) :
    join h' (rows f a) (rows f b) = rows f (join h a b) := by
  have hN : N + N = N2 := by
    have := h.2.2
    simpa using this
  funext j
  obtain ⟨p, q, rfl⟩ : ∃ (p : Fin Mb) (q : Fin N2), j = ix2 p q := ⟨j 0, j 1, eq_ix2 j⟩
  rw [rows_ix2]
  unfold join
  by_cases hq : q.val < N
  · rw [concatenate_pair_apply_left 1 (rows f a) (rows f b) h' (ix2 p q) rfl (ix2 p ⟨q.val, hq⟩)
        (fun c => match c with | ⟨0, _⟩ => rfl | ⟨1, _⟩ => rfl),
      concatenate_pair_apply_left 1 a b h (ix2 (f p) q) rfl (ix2 (f p) ⟨q.val, hq⟩)
        (fun c => match c with | ⟨0, _⟩ => rfl | ⟨1, _⟩ => rfl)]
    rfl
  · have hq2 : q.val - N < N := by have := q.isLt; omega
    rw [concatenate_pair_apply_right 1 (rows f a) (rows f b) h' (ix2 p q) rfl rfl (ix2 p ⟨q.val - N, hq2⟩)
        (fun c hc => match c, hc with | ⟨0, _⟩, _ => rfl | ⟨1, _⟩, hc => absurd rfl hc)
        (by show q.val - N + N = q.val; omega),
      concatenate_pair_apply_right 1 a b h (ix2 (f p) q) rfl rfl (ix2 (f p) ⟨q.val - N, hq2⟩)
        (fun c hc => match c, hc with | ⟨0, _⟩, _ => rfl | ⟨1, _⟩, hc => absurd rfl hc)
        (by show q.val - N + N = q.val; omega)]
    rfl

end Cert.Net

end
-- ==== Proof.NetReference.lean ====
/-
  The reference network over the extended reals, read as dense layers.

  The reference computes three arrays from its fifteen arguments. With X · W the plain product (entry (p, n) is
  ∑ k, X (p, k) · W (k, n)), b a bias vector added to every row, and max (·, 0) taken entry by entry:

    h_semantic  = max (go · mw1 + mb1, 0) · mw2 + mb2
    h_structure = max (adj · (max (adj · (go · gw1) + gb1, 0) · gw2) + gb2, 0)
    pred (p, q) = logistic (∑ k, S (p, k) · C (q, k)),  S = max (seq · fw1 + fb1, 0) · fw2 + fb2,
                                                         C = h_semantic and h_structure side by side.

  The host writes a bias as the vector made a [1, N] row and that row repeated down the rows, the rectifier as a
  maximum with a zero constant repeated everywhere, the last product as a product against the TRANSPOSE of C, and the
  logistic function as 1 / (1 + exp (−x)) with the ones constants repeated everywhere. This file names the three
  result terms as functions of the arguments and shows each equal to the composition of dense layers above, the bias
  vectors recast as [1, N] rows. Only the definitions of the operations are used — no law of arithmetic beyond
  reading the word 0x3F800000 as the number one — so no entry needs to be finite.
-/
import proofs.«109707_g57251914055972_cont_9to1_m_423_2_alg».proof.Proof.NetSpec
import proofs.«109707_g57251914055972_cont_9to1_m_423_2_alg».proof.Proof.RefRun
import proofs.«109707_g57251914055972_cont_9to1_m_423_2_alg».proof.Proof.LibAffine
import proofs.«109707_g57251914055972_cont_9to1_m_423_2_alg».proof.Proof.LibTransposedDense
import proofs.«109707_g57251914055972_cont_9to1_m_423_2_alg».proof.Proof.LibDenseEntry
import proofs.«109707_g57251914055972_cont_9to1_m_423_2_alg».proof.Proof.LibSpreadRow
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Net.Reference

open Cert.ReferenceIdeal Cert.ReferenceIdeal.Gen Idealize.ShloMosaic Idealize.ShloMosaic.ValueIdx
open Cert.ReferenceIdeal.RunP (concat2)
open Cert.Net Cert.LibAffine

/-! ## The three results as functions of the arguments -/

/-- h_semantic: two dense layers on the node features, the first rectified. -/
def refHsem (go : FVec Ideal S8192x128 .f32) (mw1 : FVec Ideal S128x256 .f32) (mb1 : FVec Ideal S256 .f32)
    (mw2 : FVec Ideal S256x128 .f32) (mb2 : FVec Ideal S128 .f32) : FVec Ideal S8192x128 .f32 :=
  addf (Host.dotGeneral (F := Ideal) dot_S8192x256_S256x128_S8192x128_1_0_0_1_n_n none (maximumf (addf (Host.dotGeneral (F := Ideal) dot_S8192x128_S128x256_S8192x256_1_0_0_1_n_n none go mw1) (broadcastInDim S8192x256 ![0, 1] bcast_S1x256_S8192x256_0_1 (broadcastInDim S1x256 ![1] bcast_S256_S1x256_1 mb1))) (broadcastInDim S8192x256 ![] bcast_S_S8192x256 (constant (F := Ideal) S_ .f32 0x00000000#32))) mw2) (broadcastInDim S8192x128 ![0, 1] bcast_S1x128_S8192x128_0_1 (broadcastInDim S1x128 ![1] bcast_S128_S1x128_1 mb2))

/-- h_structure: two rectified graph layers, each the adjacency array times a plain product, plus a bias. -/
def refHstr (adj : FVec Ideal S8192x8192 .f32) (go : FVec Ideal S8192x128 .f32) (gw1 : FVec Ideal S128x256 .f32)
    (gb1 : FVec Ideal S256 .f32) (gw2 : FVec Ideal S256x128 .f32) (gb2 : FVec Ideal S128 .f32) : FVec Ideal S8192x128 .f32 :=
  maximumf (addf (Host.dotGeneral (F := Ideal) dot_S8192x8192_S8192x128_S8192x128_1_0_0_1_n_n none adj (Host.dotGeneral (F := Ideal) dot_S8192x256_S256x128_S8192x128_1_0_0_1_n_n none (maximumf (addf (Host.dotGeneral (F := Ideal) dot_S8192x8192_S8192x256_S8192x256_1_0_0_1_n_n none adj (Host.dotGeneral (F := Ideal) dot_S8192x128_S128x256_S8192x256_1_0_0_1_n_n none go gw1)) (broadcastInDim S8192x256 ![0, 1] bcast_S1x256_S8192x256_0_1 (broadcastInDim S1x256 ![1] bcast_S256_S1x256_1 gb1))) (broadcastInDim S8192x256 ![] bcast_S_S8192x256 (constant (F := Ideal) S_ .f32 0x00000000#32))) gw2)) (broadcastInDim S8192x128 ![0, 1] bcast_S1x128_S8192x128_0_1 (broadcastInDim S1x128 ![1] bcast_S128_S1x128_1 gb2))) (broadcastInDim S8192x128 ![] bcast_S_S8192x128 (constant (F := Ideal) S_ .f32 0x00000000#32))

/-- pred: the logistic function, spelled 1 / (1 + exp (−x)), of the encoded sequences' product against the transpose of
    the two node arrays hs and hg side by side. -/
def refPred (seq : FVec Ideal S4096x1280 .f32) (fw1 : FVec Ideal S1280x256 .f32) (fb1 : FVec Ideal S256 .f32)
    (fw2 : FVec Ideal S256x256 .f32) (fb2 : FVec Ideal S256 .f32) (hs hg : FVec Ideal S8192x128 .f32) :
    FVec Ideal S4096x8192 .f32 :=
  Host.divf (F := Ideal) (broadcastInDim S4096x8192 ![] bcast_S_S4096x8192 (constant (F := Ideal) S_ .f32 0x3F800000#32)) (addf (broadcastInDim S4096x8192 ![] bcast_S_S4096x8192 (constant (F := Ideal) S_ .f32 0x3F800000#32)) (Host.exp (F := Ideal) (Host.negf (F := Ideal) (Host.dotGeneral (F := Ideal) dot_S4096x256_S256x8192_S4096x8192_1_0_0_1_n_n none (addf (Host.dotGeneral (F := Ideal) dot_S4096x256_S256x256_S4096x256_1_0_0_1_n_n none (maximumf (addf (Host.dotGeneral (F := Ideal) dot_S4096x1280_S1280x256_S4096x256_1_0_0_1_n_n none seq fw1) (broadcastInDim S4096x256 ![0, 1] bcast_S1x256_S4096x256_0_1 (broadcastInDim S1x256 ![1] bcast_S256_S1x256_1 fb1))) (broadcastInDim S4096x256 ![] bcast_S_S4096x256 (constant (F := Ideal) S_ .f32 0x00000000#32))) fw2) (broadcastInDim S4096x256 ![0, 1] bcast_S1x256_S4096x256_0_1 (broadcastInDim S1x256 ![1] bcast_S256_S1x256_1 fb2))) (transpose S256x8192 [1, 0] (concat2 hs hg) transposes_S8192x256_S256x8192_1_0)))))

/-! ## Pieces: the plain product on the host, the number one, the logistic function entry by entry -/

variable {M K N : ℕ}

/-- The host's plain product is `prod`: entry (p, n) is ∑ k, X (p, k) · W (k, n). -/
theorem host_prod (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![M, K]⟩ .f32) (W : FVec Ideal ⟨2, ![K, N]⟩ .f32) :
    Host.dotGeneral (F := Ideal) d prec X W = prod X W := by
  funext i
  obtain ⟨p, n, rfl⟩ : ∃ (p : Fin M) (n : Fin N), i = ix2 p n := ⟨i 0, i 1, eq_ix2 i⟩
  rw [prod_ix2]
  exact Cert.LibDenseEntry.dotGeneral_plain_apply d h1 h2 h3 h4 h5 h6 prec .single X W p n

/-- The float word 0x3F800000 is the number one. -/
theorem ofBits_one_f32 : Ideal.ofBits .f32 0x3F800000#32 = 1 := by
  simp [Ideal.ofBits, Ideal.ieee, -EReal.coe_mul]; norm_num

/-- One over one plus the exponential of the negation, with both ones a constant repeated everywhere, is the logistic
    function at every entry. -/
theorem host_logistic_apply {s : Shape} (h : (⟨0, ![]⟩ : Shape).BroadcastsInDim s ![]) (x : FVec Ideal s .f32) (i : s.Idx) :
    Host.divf (F := Ideal) (broadcastInDim s ![] h (constant (F := Ideal) ⟨0, ![]⟩ .f32 0x3F800000#32))
        (addf (broadcastInDim s ![] h (constant (F := Ideal) ⟨0, ![]⟩ .f32 0x3F800000#32))
          (Host.exp (F := Ideal) (Host.negf (F := Ideal) x))) i
      = Ideal.logistic (x i) := by
  show Ideal.div (broadcastInDim s ![] h (constant (F := Ideal) ⟨0, ![]⟩ .f32 0x3F800000#32) i)
      (broadcastInDim s ![] h (constant (F := Ideal) ⟨0, ![]⟩ .f32 0x3F800000#32) i + Ideal.exp (-(x i))) = _
  rw [Cert.LibSpreadRow.spread_const_apply, ofBits_one_f32]
  rfl

/-- Two arrays side by side: the reference's concatenate is `join`, whatever proof of the extents it is given. -/
theorem concat2_eq_join (hcat : Shape.Concatenates [S8192x128, S8192x128] S8192x256 1) (a b : FVec Ideal S8192x128 .f32) :
    concat2 a b = join hcat a b := rfl

/-! ## The three results as compositions of dense layers -/

variable (h256 : S256.ShapeCasts S1x256) (h128 : S128.ShapeCasts S1x128)
  (hcat : Shape.Concatenates [S8192x128, S8192x128] S8192x256 1)

/-- h_semantic is two dense layers in a row on the node features, the first rectified, the bias vectors as [1, N] rows. -/
theorem refHsem_eq (go : FVec Ideal S8192x128 .f32) (mw1 : FVec Ideal S128x256 .f32) (mb1 : FVec Ideal S256 .f32)
    (mw2 : FVec Ideal S256x128 .f32) (mb2 : FVec Ideal S128 .f32) :
    refHsem go mw1 mb1 mw2 mb2 = twoLayer go mw1 (shapeCast S1x256 mb1 h256) mw2 (shapeCast S1x128 mb2 h128) := by
  have e1 := host_affineFloor dot_S8192x128_S128x256_S8192x256_1_0_0_1_n_n rfl rfl rfl rfl rfl rfl none go mw1 mb1
    bcast_S256_S1x256_1 bcast_S1x256_S8192x256_0_1 bcast_S_S8192x256 0x00000000#32
  have e2 := host_affine dot_S8192x256_S256x128_S8192x128_1_0_0_1_n_n rfl rfl rfl rfl rfl rfl none
    (affineFloor zero go mw1 mb1) mw2 mb2 bcast_S128_S1x128_1 bcast_S1x128_S8192x128_0_1
  unfold refHsem twoLayer
  rw [rowAffineFloor_cast, rowAffine_cast, e1, e2]

/-- h_structure is a rectified dense layer on the adjacency array whose weights are themselves the hidden product
    max (adj · (go · gw1) + gb1, 0) · gw2. -/
theorem refHstr_eq (adj : FVec Ideal S8192x8192 .f32) (go : FVec Ideal S8192x128 .f32) (gw1 : FVec Ideal S128x256 .f32)
    (gb1 : FVec Ideal S256 .f32) (gw2 : FVec Ideal S256x128 .f32) (gb2 : FVec Ideal S128 .f32) :
    refHstr adj go gw1 gb1 gw2 gb2
      = rowAffineFloor zero adj (hiddenProd adj (prod go gw1) (shapeCast S1x256 gb1 h256) gw2) (shapeCast S1x128 gb2 h128) := by
  have e0 := host_prod dot_S8192x128_S128x256_S8192x256_1_0_0_1_n_n rfl rfl rfl rfl rfl rfl none go gw1
  have e1 := host_affineFloor dot_S8192x8192_S8192x256_S8192x256_1_0_0_1_n_n rfl rfl rfl rfl rfl rfl none adj (prod go gw1) gb1
    bcast_S256_S1x256_1 bcast_S1x256_S8192x256_0_1 bcast_S_S8192x256 0x00000000#32
  have e2 := host_prod dot_S8192x256_S256x128_S8192x128_1_0_0_1_n_n rfl rfl rfl rfl rfl rfl none
    (affineFloor zero adj (prod go gw1) gb1) gw2
  have e3 := host_affineFloor dot_S8192x8192_S8192x128_S8192x128_1_0_0_1_n_n rfl rfl rfl rfl rfl rfl none adj
    (prod (affineFloor zero adj (prod go gw1) gb1) gw2) gb2
    bcast_S128_S1x128_1 bcast_S1x128_S8192x128_0_1 bcast_S_S8192x128 0x00000000#32
  unfold refHstr hiddenProd
  rw [rowAffineFloor_cast, rowAffineFloor_cast, e0, e1, e2, e3]

/-- pred is the logistic scores of the encoded sequences' rows (two dense layers, the first rectified) against the rows
    of the two node arrays side by side. -/
theorem refPred_eq (seq : FVec Ideal S4096x1280 .f32) (fw1 : FVec Ideal S1280x256 .f32) (fb1 : FVec Ideal S256 .f32)
    (fw2 : FVec Ideal S256x256 .f32) (fb2 : FVec Ideal S256 .f32) (hs hg : FVec Ideal S8192x128 .f32) :
    refPred seq fw1 fb1 fw2 fb2 hs hg
      = scores (twoLayer seq fw1 (shapeCast S1x256 fb1 h256) fw2 (shapeCast S1x256 fb2 h256)) (join hcat hs hg) := by
  have e1 := host_affineFloor dot_S4096x1280_S1280x256_S4096x256_1_0_0_1_n_n rfl rfl rfl rfl rfl rfl none seq fw1 fb1
    bcast_S256_S1x256_1 bcast_S1x256_S4096x256_0_1 bcast_S_S4096x256 0x00000000#32
  have e2 := host_affine dot_S4096x256_S256x256_S4096x256_1_0_0_1_n_n rfl rfl rfl rfl rfl rfl none
    (affineFloor zero seq fw1 fb1) fw2 fb2 bcast_S256_S1x256_1 bcast_S1x256_S4096x256_0_1
  unfold refPred twoLayer
  rw [rowAffineFloor_cast, rowAffine_cast, e1, e2, concat2_eq_join hcat]
  funext i
  obtain ⟨p, q, rfl⟩ : ∃ (p : Fin 4096) (q : Fin 8192), i = ix2 p q := ⟨i 0, i 1, eq_ix2 i⟩
  rw [host_logistic_apply, scores_ix2]
  exact congrArg Ideal.logistic
    (Cert.LibTransposedDense.dotGeneral_transposed_apply dot_S4096x256_S256x8192_S4096x8192_1_0_0_1_n_n
      rfl rfl rfl rfl rfl rfl none transposes_S8192x256_S256x8192_1_0 _ (join hcat hs hg) p q)

end Cert.Net.Reference

end
-- ==== Proof.LibVectorLayers.lean ====
/-
  Dense layers as the matrix unit spells them, over the extended reals, for any extents.

  A dense layer on the matrix unit is a product into an accumulator that is zero everywhere, followed by the bias: a
  [1, N] row (recast to its own shape, which changes nothing) spread over the M rows and added entry by entry; the
  rectified layer then takes the maximum with a scalar constant spread over the whole array. This file reads those two
  spellings as the layers they are: entry (p, n) is ∑ k, X (p, k) · W (k, n) + r (0, n), floored at the constant's
  value in the second. It also reads, at an entry, the product in which BOTH operands are contracted along their second
  axis: entry (p, q) of A · Wᵀ is ∑ k, A (p, k) · W (q, k), row p of A against row q of W.
  Only the definitions of the operations are used, no law of arithmetic, so no entry needs to be finite.
-/
import proofs.«109707_g57251914055972_cont_9to1_m_423_2_alg».proof.Proof.LibDenseEntry
import proofs.«109707_g57251914055972_cont_9to1_m_423_2_alg».proof.Proof.LibAffine
import proofs.«109707_g57251914055972_cont_9to1_m_423_2_alg».proof.Proof.LibTransposedDense
import Idealize.ShloMosaic.PureOps.Ideal.Laws
import Idealize.ShloMosaic.Lib.ValueIdx
import Idealize.ShloMosaic.Lib.Pipeline.Value

noncomputable section

namespace Cert.LibVectorLayers

open Idealize.ShloMosaic Idealize.ShloMosaic.ValueIdx

variable {M K N : ℕ}

/-- The plain product [M, K] × [K, N] into a zero accumulator, as a whole array: entry i = (p, n) is
    ∑ k, X (p, k) · W (k, n). -/
theorem matmul_plain_zero {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![M, K]⟩ φ₁) (w : FVec Ideal ⟨2, ![K, N]⟩ φ₂) :
    matmul d prec x w (constant ⟨2, ![M, N]⟩ .f32 0x00000000#32)
      = fun i => ∑ k : Fin K, x (ix2 (n0 := M) (i 0) k) * w (ix2 (n1 := N) k (i 1)) := by
  funext i
  obtain ⟨p, n, rfl⟩ : ∃ (p : Fin M) (n : Fin N), i = ix2 p n := ⟨i 0, i 1, eq_ix2 i⟩
  exact Cert.LibDenseEntry.matmul_plain_zero_apply d h1 h2 h3 h4 h5 h6 prec x w p n

/-- The dense layer with its bias a [1, N] row: the product into a zero accumulator, plus the row (recast to its own
    shape) spread over the M rows. Entry (p, n) is ∑ k, X (p, k) · W (k, n) + r (0, n). -/
theorem matmul_rowAffine {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![M, K]⟩ φ₁) (w : FVec Ideal ⟨2, ![K, N]⟩ φ₂) (r : FVec Ideal ⟨2, ![1, N]⟩ .f32)
    (hc : (⟨2, ![1, N]⟩ : Shape).ShapeCasts ⟨2, ![1, N]⟩)
    (hb : (⟨2, ![1, N]⟩ : Shape).Broadcasts ⟨2, ![M, N]⟩) :
    addf (matmul d prec x w (constant ⟨2, ![M, N]⟩ .f32 0x00000000#32))
        (broadcastTo ⟨2, ![M, N]⟩ (shapeCast ⟨2, ![1, N]⟩ r hc) hb)
      = Cert.LibAffine.rowAffine x w r := by
  funext i
  obtain ⟨p, n, rfl⟩ : ∃ (p : Fin M) (n : Fin N), i = ix2 p n := ⟨i 0, i 1, eq_ix2 i⟩
  rw [Cert.LibAffine.rowAffine_ix2, shapeCast_self]
  show matmul d prec x w (constant ⟨2, ![M, N]⟩ .f32 0x00000000#32) (ix2 p n)
      + broadcastTo ⟨2, ![M, N]⟩ r hb (ix2 p n) = _
  rw [Cert.LibTransposedDense.row_spread_apply r hb p n]
  exact congrArg (· + r (ix2 (0 : Fin 1) n)) (Cert.LibDenseEntry.matmul_plain_zero_apply d h1 h2 h3 h4 h5 h6 prec x w p n)

/-- The rectified layer: the same, then the maximum with a scalar constant spread over the whole array. Entry (p, n)
    is max (∑ k, X (p, k) · W (k, n) + r (0, n), z), z the extended real the constant's word denotes. -/
theorem matmul_rowAffineFloor {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![M, K]⟩ φ₁) (w : FVec Ideal ⟨2, ![K, N]⟩ φ₂) (r : FVec Ideal ⟨2, ![1, N]⟩ .f32)
    (hc : (⟨2, ![1, N]⟩ : Shape).ShapeCasts ⟨2, ![1, N]⟩)
    (hb : (⟨2, ![1, N]⟩ : Shape).Broadcasts ⟨2, ![M, N]⟩) (zb : BitVec 32) :
    maximumf (addf (matmul d prec x w (constant ⟨2, ![M, N]⟩ .f32 0x00000000#32))
          (broadcastTo ⟨2, ![M, N]⟩ (shapeCast ⟨2, ![1, N]⟩ r hc) hb))
        (broadcast ⟨2, ![M, N]⟩ (Scalar.ofBits (F := Ideal) .f32 zb))
      = Cert.LibAffine.rowAffineFloor (Ideal.ofBits .f32 zb) x w r := by
  rw [matmul_rowAffine d h1 h2 h3 h4 h5 h6 prec x w r hc hb]
  rfl

/-- [M, K] × [N, K] → [M, N] with BOTH operands contracted along their second axis, into a zero accumulator:
    entry (p, q) is ∑ k, A (p, k) · W (q, k), row p of A against row q of W. -/
theorem matmul_rows_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision)
    (a : FVec Ideal ⟨2, ![M, K]⟩ φ₁) (w : FVec Ideal ⟨2, ![N, K]⟩ φ₂) (p : Fin M) (q : Fin N) :
    matmul d prec a w (constant ⟨2, ![M, N]⟩ .f32 0x00000000#32) (ix2 p q)
      = Cert.LibTransposedDense.rowDot a w p q := by
  obtain ⟨lc, rc, ln, rn, lb, rb, wf⟩ := d
  dsimp only at h1 h2 h3 h4 h5 h6
  subst h1 h2 h3 h4 h5 h6
  generalize hd : (⟨[1], [1], [0], [0], [], [], wf⟩ : DotDims ⟨2, ![M, K]⟩ ⟨2, ![N, K]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [1] := by subst hd; rfl
  -- the left operand's row is the result's row …
  have lrow : ∀ (j : (⟨2, ![M, N]⟩ : Shape).Idx) (t : d.contr.Idx), (d.lhsIdx j t 0).val = (j 0).val := by
    intro j t; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  -- … and the right operand's row is the result's column
  have rrow : ∀ (j : (⟨2, ![M, N]⟩ : Shape).Idx) (t : d.contr.Idx), (d.rhsIdx j t 0).val = (j 1).val := by
    intro j t; subst hd
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  refine (Ideal.matmul_constant_zero_apply d prec a w (ix2 p q)).trans ?_
  unfold Cert.LibTransposedDense.rowDot
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun c => Fin.ext (by
      match c with
      | ⟨0, _⟩ => exact lrow _ _
      | ⟨1, _⟩ => exact (d.lhsIdx_val_of_single hlc (ix2 p q) _).trans hk)
  have er : d.rhsIdx (ix2 p q) ((contrEquiv1 d K hr hs).symm k) = ix2 q k :=
    funext fun c => Fin.ext (by
      match c with
      | ⟨0, _⟩ => exact rrow _ _
      | ⟨1, _⟩ => exact (d.rhsIdx_val_of_single hrc (ix2 p q) _).trans hk)
  exact congrArg₂ (· * ·) (congrArg a el) (congrArg w er)

end Cert.LibVectorLayers

end
-- ==== Proof.NetBodies.lean ====
/-
  What each kernel body stores, as a composition of dense layers over the extended reals.

  The network's four kernels each load whole arrays and store one or two values computed from them on the matrix
  unit. Read as functions of the loaded arrays, those values are:
    • body 0: two dense layers in a row, the first rectified, max (X · W1 + r1, 0) · W2 + r2; and a plain product X · W;
    • body 1: two dense layers in a row again, at other extents;
    • body 2: a rectified dense layer followed by a plain product, max (X · W1 + r1, 0) · W2;
    • body 3: a rectified dense layer max (X · W + r, 0); and the logistic scores of the rows of one array against the
      rows of a second array joined side by side with that rectified layer.
  A load recast to its own shape is the load itself, and a side-by-side concatenation of two arrays is their join by
  definition. Only the definitions of the operations are used, no law of arithmetic, so no entry needs to be finite.
-/
import proofs.«109707_g57251914055972_cont_9to1_m_423_2_alg».proof.Proof.NetSpec
import proofs.«109707_g57251914055972_cont_9to1_m_423_2_alg».proof.Proof.LibVectorLayers
import proofs.«109707_g57251914055972_cont_9to1_m_423_2_alg».proof.Proof.Gen.KernelIdeal.Skeleton

noncomputable section

namespace Cert.Net.Bodies

open Idealize.ShloMosaic Idealize.ShloMosaic.ValueIdx
open Cert.KernelIdeal Cert.KernelIdeal.Gen
open Cert.Net Cert.LibAffine
open Cert.LibVectorLayers

/-- Body 0's first stored value: two dense layers in a row, the first rectified. -/
theorem pay0_1 (v0 : Vec Ideal S1024x128 .f32) (v1 : Vec Ideal S128x256 .f32) (v3 : Vec Ideal S1x256 .f32)
    (v9 : Vec Ideal S256x128 .f32) (v11 : Vec Ideal S1x128 .f32) :
    k0_pay1 (F := Ideal) v0 v1 v3 v9 v11 = twoLayer v0 v1 v3 v9 v11 :=
  (matmul_rowAffine dot_S1024x256_S256x128_S1024x128_1_0_0_1_n_n rfl rfl rfl rfl rfl rfl none _ v9 v11
      shapeCasts_S1x128_S1x128 broadcasts_S1x128_S1024x128).trans
    (congrArg (fun h => rowAffine h v9 v11)
      (matmul_rowAffineFloor dot_S1024x128_S128x256_S1024x256_1_0_0_1_n_n rfl rfl rfl rfl rfl rfl none v0 v1 v3
        shapeCasts_S1x256_S1x256 broadcasts_S1x256_S1024x256 0x00000000#32))

/-- Body 0's second stored value: the plain product. -/
theorem pay0_2 (v0 : Vec Ideal S1024x128 .f32) (v16 : Vec Ideal S128x256 .f32) :
    k0_pay2 (F := Ideal) v0 v16 = prod v0 v16 :=
  matmul_plain_zero dot_S1024x128_S128x256_S1024x256_1_0_0_1_n_n rfl rfl rfl rfl rfl rfl none v0 v16

/-- Body 1's stored value: two dense layers in a row, the first rectified. -/
theorem pay1_1 (v0 : Vec Ideal S1024x1280 .f32) (v1 : Vec Ideal S1280x256 .f32) (v3 : Vec Ideal S1x256 .f32)
    (v9 : Vec Ideal S256x256 .f32) (v11 : Vec Ideal S1x256 .f32) :
    k1_pay1 (F := Ideal) v0 v1 v3 v9 v11 = twoLayer v0 v1 v3 v9 v11 :=
  (matmul_rowAffine dot_S1024x256_S256x256_S1024x256_1_0_0_1_n_n rfl rfl rfl rfl rfl rfl none _ v9 v11
      shapeCasts_S1x256_S1x256 broadcasts_S1x256_S1024x256).trans
    (congrArg (fun h => rowAffine h v9 v11)
      (matmul_rowAffineFloor dot_S1024x1280_S1280x256_S1024x256_1_0_0_1_n_n rfl rfl rfl rfl rfl rfl none v0 v1 v3
        shapeCasts_S1x256_S1x256 broadcasts_S1x256_S1024x256 0x00000000#32))

/-- Body 2's stored value: a rectified dense layer followed by a plain product. The weights are first recast to
    their own shape, which changes nothing. -/
theorem pay2_1 (v0 : Vec Ideal S256x8192 .f32) (v1 : Vec Ideal S8192x256 .f32) (v4 : Vec Ideal S1x256 .f32)
    (v10 : Vec Ideal S256x128 .f32) :
    k2_pay1 (F := Ideal) v0 v1 v4 v10 = hiddenProd v0 v1 v4 v10 :=
  (matmul_plain_zero dot_S256x256_S256x128_S256x128_1_0_0_1_n_n rfl rfl rfl rfl rfl rfl none _ v10).trans
    (congrArg (fun h => prod h v10)
      ((matmul_rowAffineFloor dot_S256x8192_S8192x256_S256x256_1_0_0_1_n_n rfl rfl rfl rfl rfl rfl none v0
          (shapeCast S8192x256 v1 shapeCasts_S8192x256_S8192x256) v4
          shapeCasts_S1x256_S1x256 broadcasts_S1x256_S256x256 0x00000000#32).trans
        (congrArg (fun u => rowAffineFloor zero v0 u v4) (shapeCast_self v1 shapeCasts_S8192x256_S8192x256))))

/-- Body 3's first stored value: a rectified dense layer. The weights are first recast to their own shape. -/
theorem pay3_1 (v0 : Vec Ideal S256x8192 .f32) (v1 : Vec Ideal S8192x128 .f32) (v4 : Vec Ideal S1x128 .f32) :
    k3_pay1 (F := Ideal) v0 v1 v4 = rowAffineFloor zero v0 v1 v4 :=
  (matmul_rowAffineFloor dot_S256x8192_S8192x128_S256x128_1_0_0_1_n_n rfl rfl rfl rfl rfl rfl none v0
      (shapeCast S8192x128 v1 shapeCasts_S8192x128_S8192x128) v4
      shapeCasts_S1x128_S1x128 broadcasts_S1x128_S256x128 0x00000000#32).trans
    (congrArg (fun u => rowAffineFloor zero v0 u v4) (shapeCast_self v1 shapeCasts_S8192x128_S8192x128))

/-- Body 3's second stored value: the logistic scores of the rows of the loaded [4096, 256] array against the rows
    of the [256, 256] array made of a loaded [256, 128] array and the rectified layer side by side. -/
theorem pay3_2 (v0 : Vec Ideal S256x8192 .f32) (v1 : Vec Ideal S8192x128 .f32) (v4 : Vec Ideal S1x128 .f32)
    (v11 : Vec Ideal S256x128 .f32) (v14 : Vec Ideal S4096x256 .f32) :
    k3_pay2 (F := Ideal) v0 v1 v4 v11 v14
      = scores v14 (join concatenates_S256x128_S256x128_S256x256_d1 v11 (rowAffineFloor zero v0 v1 v4)) := by
  -- the right operand of the product is the join
  have ej : concatenate S256x256 1
        [⟨S256x128, shapeCast S256x128 v11 shapeCasts_S256x128_S256x128⟩, ⟨S256x128, k3_pay1 (F := Ideal) v0 v1 v4⟩]
        concatenates_S256x128_S256x128_S256x256_d1
      = join concatenates_S256x128_S256x128_S256x256_d1 v11 (rowAffineFloor zero v0 v1 v4) := by
    rw [shapeCast_self, pay3_1]
    rfl
  funext i
  obtain ⟨p, q, rfl⟩ : ∃ (p : Fin 4096) (q : Fin 256), i = ix2 p q := ⟨i 0, i 1, eq_ix2 i⟩
  rw [scores_ix2]
  show Ideal.logistic (matmul dot_S4096x256_S256x256_S4096x256_1_1_0_0_n_n none
      (shapeCast S4096x256 v14 shapeCasts_S4096x256_S4096x256)
      (concatenate S256x256 1
        [⟨S256x128, shapeCast S256x128 v11 shapeCasts_S256x128_S256x128⟩, ⟨S256x128, k3_pay1 (F := Ideal) v0 v1 v4⟩]
        concatenates_S256x128_S256x128_S256x256_d1)
      (constant S4096x256 .f32 0x00000000#32) (ix2 p q)) = _
  refine congrArg Ideal.logistic ?_
  refine (matmul_rows_zero_apply dot_S4096x256_S256x256_S4096x256_1_1_0_0_n_n rfl rfl rfl rfl rfl rfl none _ _ p q).trans ?_
  rw [shapeCast_self, ej]

end Cert.Net.Bodies

end
-- ==== Proof.NetRegion0.lean ====
/-
  The first pallas_call, array by array. Its grid has 8 points; point t stages rows 1024·t … 1024·t + 1023 of the
  node-feature array and the whole of every weight and bias array, and writes back the same rows of its two results.
  Since each result row is a function of the matching feature row alone (the compositions of NetSpec read their first
  operand one row at a time), what point t writes back is rows 1024·t … of ONE whole-array function of the arrays the
  call finds; the 8 row blocks tile the results, so each result array ends as that function.
  The bodies' arithmetic enters as hypotheses (`hpay1`, `hpay2`): the stored values as compositions of NetSpec.
-/
import proofs.«109707_g57251914055972_cont_9to1_m_423_2_alg».proof.Proof.Gen.KernelIdeal.Frame
import proofs.«109707_g57251914055972_cont_9to1_m_423_2_alg».proof.Proof.NetSpec
import Idealize.ShloMosaic.Lib.Pipeline.Value

set_option maxRecDepth 16384

noncomputable section

namespace Cert.Net.Region0

open Cert.KernelIdeal Cert.KernelIdeal.Gen Idealize.ShloMosaic Idealize.ShloMosaic.TcCoe Idealize.SL.Sem Idealize.ShloMosaic.ValueIdx
open Idealize.ShloMosaic.Pipeline (Dat)
open Cert.Net Cert.LibAffine

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the others at block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Every block row is some point's. -/
theorem onto : ∀ q : Fin 8, ∃ t : Fin cfg0.N, t.val = q.val :=
  (by decide +kernel : ∀ q : Fin 8, ∃ t : Fin grid0.N, t.val = q.val)

theorem t_lt (t : Fin cfg0.N) : t.val < 8 := lt_of_lt_of_eq t.isLt N_0

/-- Row p of point t's block is row 1024·t + p of the array. -/
def rowOf (t : Fin cfg0.N) (p : Fin 1024) : Fin 8192 := ⟨t.val * 1024 + p.val, by have := t_lt t; have := p.isLt; omega⟩

/-! ## The blocks the body loads -/

theorem blk_0 (c : Dev nD) (t : Fin cfg0.N) : iblk0 V c 0 t = rows (rowOf t) (V c main_arg1) := by
  funext j
  show V c main_arg1 (((cfg0.win 0).blk t).view.emb j) = V c main_arg1 (ix2 (rowOf t (j 0)) (j 1))
  congr 1
  funext a; apply Fin.ext
  obtain ⟨e0, e1, -⟩ := idx t
  match a with
  | ⟨0, _⟩ => show win0_0.index t (0 : Fin 2) * 1024 + 1 * (j 0).val = t.val * 1024 + (j 0).val; rw [e0]; omega
  | ⟨1, _⟩ => show win0_0.index t (1 : Fin 2) * 128 + 1 * (j 1).val = (j 1).val; rw [e1]; omega

theorem blk_1 (c : Dev nD) (t : Fin cfg0.N) : iblk0 V c 1 t = V c main_arg3 := by
  funext j
  show V c main_arg3 (((cfg0.win 1).blk t).view.emb j) = V c main_arg3 j
  congr 1
  funext a; apply Fin.ext
  obtain ⟨-, -, e0, e1, -⟩ := idx t
  match a with
  | ⟨0, _⟩ => show win0_1.index t (0 : Fin 2) * 128 + 1 * (j 0).val = (j 0).val; rw [e0]; omega
  | ⟨1, _⟩ => show win0_1.index t (1 : Fin 2) * 256 + 1 * (j 1).val = (j 1).val; rw [e1]; omega

theorem blk_2 (c : Dev nD) (t : Fin cfg0.N) : iblk0 V c 2 t = V c main_v0 := by
  funext j
  show V c main_v0 (((cfg0.win 2).blk t).view.emb j) = V c main_v0 j
  congr 1
  funext a; apply Fin.ext
  obtain ⟨-, -, -, -, e0, e1, -⟩ := idx t
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

theorem blk_3 (c : Dev nD) (t : Fin cfg0.N) : iblk0 V c 3 t = V c main_arg5 := by
  funext j
  show V c main_arg5 (((cfg0.win 3).blk t).view.emb j) = V c main_arg5 j
  congr 1
  funext a; apply Fin.ext
  obtain ⟨-, -, -, -, -, -, e0, e1, -⟩ := idx t
  match a with
  | ⟨0, _⟩ => show win0_3.index t (0 : Fin 2) * 256 + 1 * (j 0).val = (j 0).val; rw [e0]; omega
  | ⟨1, _⟩ => show win0_3.index t (1 : Fin 2) * 128 + 1 * (j 1).val = (j 1).val; rw [e1]; omega

theorem blk_4 (c : Dev nD) (t : Fin cfg0.N) : iblk0 V c 4 t = V c main_v1 := by
  funext j
  show V c main_v1 (((cfg0.win 4).blk t).view.emb j) = V c main_v1 j
  congr 1
  funext a; apply Fin.ext
  obtain ⟨-, -, -, -, -, -, -, -, e0, e1, -⟩ := idx t
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

theorem blk_5 (c : Dev nD) (t : Fin cfg0.N) : iblk0 V c 5 t = V c main_arg7 := by
  funext j
  show V c main_arg7 (((cfg0.win 5).blk t).view.emb j) = V c main_arg7 j
  congr 1
  funext a; apply Fin.ext
  obtain ⟨-, -, -, -, -, -, -, -, -, -, e0, e1, -⟩ := idx t
  match a with
  | ⟨0, _⟩ => show win0_5.index t (0 : Fin 2) * 128 + 1 * (j 0).val = (j 0).val; rw [e0]; omega
  | ⟨1, _⟩ => show win0_5.index t (1 : Fin 2) * 256 + 1 * (j 1).val = (j 1).val; rw [e1]; omega

/-! ## The result blocks -/

/-- Reading a whole-array function through point t's block of the first result takes its rows 1024·t …. -/
theorem read_6 (t : Fin cfg0.N) (G : Arr 8192 128) : ((cfg0.win 6).blk t).view.read (Elt Ideal) G = rows (rowOf t) G := by
  funext j
  show G (((cfg0.win 6).blk t).view.emb j) = G (ix2 (rowOf t (j 0)) (j 1))
  congr 1
  funext a; apply Fin.ext
  obtain ⟨-, -, -, -, -, -, -, -, -, -, -, -, e0, e1, -⟩ := idx t
  match a with
  | ⟨0, _⟩ => show win0_6.index t (0 : Fin 2) * 1024 + 1 * (j 0).val = t.val * 1024 + (j 0).val; rw [e0]; omega
  | ⟨1, _⟩ => show win0_6.index t (1 : Fin 2) * 128 + 1 * (j 1).val = (j 1).val; rw [e1]; omega

theorem read_7 (t : Fin cfg0.N) (G : Arr 8192 256) : ((cfg0.win 7).blk t).view.read (Elt Ideal) G = rows (rowOf t) G := by
  funext j
  show G (((cfg0.win 7).blk t).view.emb j) = G (ix2 (rowOf t (j 0)) (j 1))
  congr 1
  funext a; apply Fin.ext
  obtain ⟨-, -, -, -, -, -, -, -, -, -, -, -, -, -, e0, e1⟩ := idx t
  match a with
  | ⟨0, _⟩ => show win0_7.index t (0 : Fin 2) * 1024 + 1 * (j 0).val = t.val * 1024 + (j 0).val; rw [e0]; omega
  | ⟨1, _⟩ => show win0_7.index t (1 : Fin 2) * 256 + 1 * (j 1).val = (j 1).val; rw [e1]; omega

/-- What the first result holds in the end: two dense layers of the feature array. -/
abbrev G6 (c : Dev nD) : Arr 8192 128 := twoLayer (V c main_arg1) (V c main_arg3) (V c main_v0) (V c main_arg5) (V c main_v1)
/-- What the second result holds in the end: the plain product of the feature array with the first graph weight. -/
abbrev G7 (c : Dev nD) : Arr 8192 256 := prod (V c main_arg1) (V c main_arg7)

section
variable (hpay1 : ∀ (v0 : Vec Ideal S1024x128 .f32) (v1 : Vec Ideal S128x256 .f32) (v3 : Vec Ideal S1x256 .f32)
    (v9 : Vec Ideal S256x128 .f32) (v11 : Vec Ideal S1x128 .f32), k0_pay1 (F := Ideal) v0 v1 v3 v9 v11 = twoLayer v0 v1 v3 v9 v11)
variable (hpay2 : ∀ (v0 : Vec Ideal S1024x128 .f32) (v16 : Vec Ideal S128x256 .f32), k0_pay2 (F := Ideal) v0 v16 = prod v0 v16)

include hpay1 in
/-- What point t writes back to the first result is rows 1024·t … of `G6`. -/
theorem flushed_6 (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6, read_6]
  unfold out0_6
  rw [View.canon_unit_zero hz]
  simp only [View.ld_unit_zero (S := S1024x128) hz, View.ld_unit_zero (S := S128x256) hz, View.ld_unit_zero (S := S1x256) hz,
    View.ld_unit_zero (S := S256x128) hz, View.ld_unit_zero (S := S1x128) hz]
  rw [blk_0 V c t, blk_1 V c t, blk_2 V c t, blk_3 V c t, blk_4 V c t, hpay1, rows_twoLayer]
  rfl

include hpay2 in
theorem flushed_7 (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7, read_7]
  unfold out0_7
  rw [View.canon_unit_zero hz]
  simp only [View.ld_unit_zero (S := S1024x128) hz, View.ld_unit_zero (S := S128x256) hz]
  rw [blk_0 V c t, blk_5 V c t, hpay2, rows_prod]
  rfl
end

/-! ## The row blocks tile the results -/

theorem mem_blk_6 (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v6_0).slice (win0_6.rect t)).set ↔ _
  rw [View.set_slice_whole, Rect.mem_set_unit]
  exact Iff.rfl

theorem mem_blk_7 (t : Fin cfg0.N) (i : S8192x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v6_1).slice (win0_7.rect t)).set ↔ _
  rw [View.set_slice_whole, Rect.mem_set_unit]
  exact Iff.rfl

/-- Row r of the first result lies in the block of point r / 1024. -/
theorem cover_6 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  obtain ⟨t, ht⟩ := onto ⟨(i 0).val / 1024, by omega⟩
  have ht' : t.val = (i 0).val / 1024 := ht
  refine ⟨t, flush0_6 t, ?_⟩
  rw [mem_blk_6]
  obtain ⟨-, -, -, -, -, -, -, -, -, -, -, -, e0, e1, -⟩ := idx t
  intro a
  match a with
  | ⟨0, _⟩ => show win0_6.index t (0 : Fin 2) * 1024 ≤ (i 0).val ∧ (i 0).val < win0_6.index t (0 : Fin 2) * 1024 + 1024; rw [e0]; omega
  | ⟨1, _⟩ => show win0_6.index t (1 : Fin 2) * 128 ≤ (i 1).val ∧ (i 1).val < win0_6.index t (1 : Fin 2) * 128 + 128; rw [e1]; omega

theorem cover_7 (i : S8192x256.Idx) : ∃ t : Fin cfg0.N, (cfg0.win 7).flush t = true ∧ i ∈ ((cfg0.win 7).blk t).view.set := by
  have hi0 : (i 0).val < 8192 := (i 0).isLt
  have hi1 : (i 1).val < 256 := (i 1).isLt
  obtain ⟨t, ht⟩ := onto ⟨(i 0).val / 1024, by omega⟩
  have ht' : t.val = (i 0).val / 1024 := ht
  refine ⟨t, flush0_7 t, ?_⟩
  rw [mem_blk_7]
  obtain ⟨-, -, -, -, -, -, -, -, -, -, -, -, -, -, e0, e1⟩ := idx t
  intro a
  match a with
  | ⟨0, _⟩ => show win0_7.index t (0 : Fin 2) * 1024 ≤ (i 0).val ∧ (i 0).val < win0_7.index t (0 : Fin 2) * 1024 + 1024; rw [e0]; omega
  | ⟨1, _⟩ => show win0_7.index t (1 : Fin 2) * 256 ≤ (i 1).val ∧ (i 1).val < win0_7.index t (1 : Fin 2) * 256 + 256; rw [e1]; omega

section
variable (hpay1 : ∀ (v0 : Vec Ideal S1024x128 .f32) (v1 : Vec Ideal S128x256 .f32) (v3 : Vec Ideal S1x256 .f32)
    (v9 : Vec Ideal S256x128 .f32) (v11 : Vec Ideal S1x128 .f32), k0_pay1 (F := Ideal) v0 v1 v3 v9 v11 = twoLayer v0 v1 v3 v9 v11)
variable (hpay2 : ∀ (v0 : Vec Ideal S1024x128 .f32) (v16 : Vec Ideal S128x256 .f32), k0_pay2 (F := Ideal) v0 v16 = prod v0 v16)

include hpay1 in
/-- The first result array after the call. -/
theorem final_6 (c : Dev nD) : (dat0 V c).arrAt 6 cfg0.N = G6 V c :=
  (dat0 V c).arrAt_eq_of_cover 6 (G6 V c) (fun t _ => flushed_6 V hpay1 c t) cover_6

include hpay2 in
/-- The second result array after the call. -/
theorem final_7 (c : Dev nD) : (dat0 V c).arrAt 7 cfg0.N = G7 V c :=
  (dat0 V c).arrAt_eq_of_cover 7 (G7 V c) (fun t _ => flushed_7 V hpay2 c t) cover_7
end

end Cert.Net.Region0
end
-- ==== Proof.NetRegion1.lean ====
/-
  The second pallas_call, array by array. Its grid has 4 points; point t stages rows 1024·t … 1024·t + 1023 of the
  sequence-embedding array and the whole of its two weight and two bias arrays, and writes back the same rows of its
  result: two dense layers of the staged rows. Two dense layers read their first operand one row at a time, so what
  point t writes back is rows 1024·t … of the two layers of the WHOLE embedding array; the 4 row blocks tile the
  result, which therefore ends as that function. The body's arithmetic enters as a hypothesis (`hpay`).
-/
import proofs.«109707_g57251914055972_cont_9to1_m_423_2_alg».proof.Proof.Gen.KernelIdeal.Frame
import proofs.«109707_g57251914055972_cont_9to1_m_423_2_alg».proof.Proof.NetSpec
import Idealize.ShloMosaic.Lib.Pipeline.Value

set_option maxRecDepth 16384

noncomputable section

namespace Cert.Net.Region1

open Cert.KernelIdeal Cert.KernelIdeal.Gen Idealize.ShloMosaic Idealize.ShloMosaic.TcCoe Idealize.SL.Sem Idealize.ShloMosaic.ValueIdx
open Idealize.ShloMosaic.Pipeline (Dat)
open Cert.Net Cert.LibAffine

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window sits at block (t, 0), a column-blocked one at block (0, t),
    the others at block (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block position is some point's. -/
theorem onto : ∀ q : Fin 4, ∃ t : Fin cfg1.N, t.val = q.val :=
  (by decide +kernel : ∀ q : Fin 4, ∃ t : Fin grid1.N, t.val = q.val)

theorem t_lt (t : Fin cfg1.N) : t.val < 4 := lt_of_lt_of_eq t.isLt N_1

/-- Position p inside point t's block is position 1024·t + p of the blocked axis. -/
def rowOf (t : Fin cfg1.N) (p : Fin 1024) : Fin 4096 := ⟨t.val * 1024 + p.val, by have := t_lt t; have := p.isLt; omega⟩

/-! ## The blocks the body loads -/

theorem blk_0 (c : Dev nD) (t : Fin cfg1.N) : iblk1 V c 0 t = rows (rowOf t) (V c main_arg0) := by
  funext j
  show V c main_arg0 (((cfg1.win 0).blk t).view.emb j) = V c main_arg0 (ix2 (rowOf t (j 0)) (j 1))
  congr 1
  funext a; apply Fin.ext
  obtain ⟨e0, e1, -⟩ := idx t
  match a with
  | ⟨0, _⟩ => show win1_0.index t (0 : Fin 2) * 1024 + 1 * (j 0).val = t.val * 1024 + (j 0).val; rw [e0]; omega
  | ⟨1, _⟩ => show win1_0.index t (1 : Fin 2) * 1280 + 1 * (j 1).val = (j 1).val; rw [e1]; omega

theorem blk_1 (c : Dev nD) (t : Fin cfg1.N) : iblk1 V c 1 t = V c main_arg11 := by
  funext j
  show V c main_arg11 (((cfg1.win 1).blk t).view.emb j) = V c main_arg11 j
  congr 1
  funext a; apply Fin.ext
  obtain ⟨-, -, e0, e1, -⟩ := idx t
  match a with
  | ⟨0, _⟩ => show win1_1.index t (0 : Fin 2) * 1280 + 1 * (j 0).val = (j 0).val; rw [e0]; omega
  | ⟨1, _⟩ => show win1_1.index t (1 : Fin 2) * 256 + 1 * (j 1).val = (j 1).val; rw [e1]; omega

theorem blk_2 (c : Dev nD) (t : Fin cfg1.N) : iblk1 V c 2 t = V c main_v4 := by
  funext j
  show V c main_v4 (((cfg1.win 2).blk t).view.emb j) = V c main_v4 j
  congr 1
  funext a; apply Fin.ext
  obtain ⟨-, -, -, -, e0, e1, -⟩ := idx t
  match a with
  | ⟨0, _⟩ => show win1_2.index t (0 : Fin 2) * 1 + 1 * (j 0).val = (j 0).val; rw [e0]; omega
  | ⟨1, _⟩ => show win1_2.index t (1 : Fin 2) * 256 + 1 * (j 1).val = (j 1).val; rw [e1]; omega

theorem blk_3 (c : Dev nD) (t : Fin cfg1.N) : iblk1 V c 3 t = V c main_arg13 := by
  funext j
  show V c main_arg13 (((cfg1.win 3).blk t).view.emb j) = V c main_arg13 j
  congr 1
  funext a; apply Fin.ext
  obtain ⟨-, -, -, -, -, -, e0, e1, -⟩ := idx t
  match a with
  | ⟨0, _⟩ => show win1_3.index t (0 : Fin 2) * 256 + 1 * (j 0).val = (j 0).val; rw [e0]; omega
  | ⟨1, _⟩ => show win1_3.index t (1 : Fin 2) * 256 + 1 * (j 1).val = (j 1).val; rw [e1]; omega

theorem blk_4 (c : Dev nD) (t : Fin cfg1.N) : iblk1 V c 4 t = V c main_v5 := by
  funext j
  show V c main_v5 (((cfg1.win 4).blk t).view.emb j) = V c main_v5 j
  congr 1
  funext a; apply Fin.ext
  obtain ⟨-, -, -, -, -, -, -, -, e0, e1, -⟩ := idx t
  match a with
  | ⟨0, _⟩ => show win1_4.index t (0 : Fin 2) * 1 + 1 * (j 0).val = (j 0).val; rw [e0]; omega
  | ⟨1, _⟩ => show win1_4.index t (1 : Fin 2) * 256 + 1 * (j 1).val = (j 1).val; rw [e1]; omega

/-! ## The result blocks: reading a whole-array function through point t's block -/

theorem read_5 (t : Fin cfg1.N) (G : Arr 4096 256) : ((cfg1.win 5).blk t).view.read (Elt Ideal) G = rows (rowOf t) G := by
  funext j
  show G (((cfg1.win 5).blk t).view.emb j) = G (ix2 (rowOf t (j 0)) (j 1))
  congr 1
  funext a; apply Fin.ext
  obtain ⟨-, -, -, -, -, -, -, -, -, -, e0, e1⟩ := idx t
  match a with
  | ⟨0, _⟩ => show win1_5.index t (0 : Fin 2) * 1024 + 1 * (j 0).val = t.val * 1024 + (j 0).val; rw [e0]; omega
  | ⟨1, _⟩ => show win1_5.index t (1 : Fin 2) * 256 + 1 * (j 1).val = (j 1).val; rw [e1]; omega

/-! ## The blocks tile the results -/

theorem mem_blk_5 (t : Fin cfg1.N) (i : S4096x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v7).slice (win1_5.rect t)).set ↔ _
  rw [View.set_slice_whole, Rect.mem_set_unit]
  exact Iff.rfl

/-- An index lies in the block of the point its row falls in. -/
theorem cover_5 (i : S4096x256.Idx) : ∃ t : Fin cfg1.N, (cfg1.win 5).flush t = true ∧ i ∈ ((cfg1.win 5).blk t).view.set := by
  have hi0 : (i 0).val < 4096 := (i 0).isLt
  have hi1 : (i 1).val < 256 := (i 1).isLt
  obtain ⟨t, ht⟩ := onto ⟨(i 0).val / 1024, by omega⟩
  have ht' : t.val = (i 0).val / 1024 := ht
  refine ⟨t, flush1_5 t, ?_⟩
  rw [mem_blk_5]
  obtain ⟨-, -, -, -, -, -, -, -, -, -, e0, e1⟩ := idx t
  intro a
  match a with
  | ⟨0, _⟩ => show win1_5.index t (0 : Fin 2) * 1024 ≤ (i 0).val ∧ (i 0).val < win1_5.index t (0 : Fin 2) * 1024 + 1024; rw [e0]; omega
  | ⟨1, _⟩ => show win1_5.index t (1 : Fin 2) * 256 ≤ (i 1).val ∧ (i 1).val < win1_5.index t (1 : Fin 2) * 256 + 256; rw [e1]; omega

/-- What the result holds in the end: two dense layers of the sequence-embedding array. -/
abbrev G5 (c : Dev nD) : Arr 4096 256 := twoLayer (V c main_arg0) (V c main_arg11) (V c main_v4) (V c main_arg13) (V c main_v5)

section
variable (hpay : ∀ (v0 : Vec Ideal S1024x1280 .f32) (v1 : Vec Ideal S1280x256 .f32) (v3 : Vec Ideal S1x256 .f32)
    (v9 : Vec Ideal S256x256 .f32) (v11 : Vec Ideal S1x256 .f32), k1_pay1 (F := Ideal) v0 v1 v3 v9 v11 = twoLayer v0 v1 v3 v9 v11)
include hpay

/-- What point t writes back is rows 1024·t … of `G5`. -/
theorem flushed_5 (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5, read_5]
  unfold out1_5
  rw [View.canon_unit_zero hz]
  simp only [View.ld_unit_zero (S := S1024x1280) hz, View.ld_unit_zero (S := S1280x256) hz, View.ld_unit_zero (S := S1x256) hz,
    View.ld_unit_zero (S := S256x256) hz]
  rw [blk_0 V c t, blk_1 V c t, blk_2 V c t, blk_3 V c t, blk_4 V c t, hpay, rows_twoLayer]
  rfl

/-- The result array after the call. -/
theorem final_5 (c : Dev nD) : (dat1 V c).arrAt 5 cfg1.N = G5 V c :=
  (dat1 V c).arrAt_eq_of_cover 5 (G5 V c) (fun t _ => flushed_5 V hpay c t) cover_5
end

end Cert.Net.Region1
end
-- ==== Proof.NetRegion2.lean ====
/-
  The third pallas_call, array by array. Its grid has 32 points; point t stages rows 256·t … 256·t + 255 of the
  adjacency array and the whole of the first support array, a bias row and a weight array, and writes back the same
  rows of its result: the rectified layer (adjacency rows times the support, plus the bias) times the weights. That
  composition reads the adjacency one row at a time, so what point t writes back is rows 256·t … of the composition
  applied to the WHOLE adjacency; the 32 row blocks tile the result, which therefore ends as that function.
  The body's arithmetic enters as a hypothesis (`hpay`).
-/
import proofs.«109707_g57251914055972_cont_9to1_m_423_2_alg».proof.Proof.Gen.KernelIdeal.Frame
import proofs.«109707_g57251914055972_cont_9to1_m_423_2_alg».proof.Proof.NetSpec
import Idealize.ShloMosaic.Lib.Pipeline.Value

set_option maxRecDepth 16384

noncomputable section

namespace Cert.Net.Region2

open Cert.KernelIdeal Cert.KernelIdeal.Gen Idealize.ShloMosaic Idealize.ShloMosaic.TcCoe Idealize.SL.Sem Idealize.ShloMosaic.ValueIdx
open Idealize.ShloMosaic.Pipeline (Dat)
open Cert.Net Cert.LibAffine

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the others at block (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every block row is some point's. -/
theorem onto : ∀ q : Fin 32, ∃ t : Fin cfg2.N, t.val = q.val :=
  (by decide +kernel : ∀ q : Fin 32, ∃ t : Fin grid2.N, t.val = q.val)

theorem t_lt (t : Fin cfg2.N) : t.val < 32 := lt_of_lt_of_eq t.isLt N_2

/-- Row p of point t's block is row 256·t + p of the array. -/
def rowOf (t : Fin cfg2.N) (p : Fin 256) : Fin 8192 := ⟨t.val * 256 + p.val, by have := t_lt t; have := p.isLt; omega⟩

/-! ## The blocks the body loads -/

theorem blk_0 (c : Dev nD) (t : Fin cfg2.N) : iblk2 V c 0 t = rows (rowOf t) (V c main_arg2) := by
  funext j
  show V c main_arg2 (((cfg2.win 0).blk t).view.emb j) = V c main_arg2 (ix2 (rowOf t (j 0)) (j 1))
  congr 1
  funext a; apply Fin.ext
  obtain ⟨e0, e1, -⟩ := idx t
  match a with
  | ⟨0, _⟩ => show win2_0.index t (0 : Fin 2) * 256 + 1 * (j 0).val = t.val * 256 + (j 0).val; rw [e0]; omega
  | ⟨1, _⟩ => show win2_0.index t (1 : Fin 2) * 8192 + 1 * (j 1).val = (j 1).val; rw [e1]; omega

theorem blk_1 (c : Dev nD) (t : Fin cfg2.N) : iblk2 V c 1 t = V c main_v6_1 := by
  funext j
  show V c main_v6_1 (((cfg2.win 1).blk t).view.emb j) = V c main_v6_1 j
  congr 1
  funext a; apply Fin.ext
  obtain ⟨-, -, e0, e1, -⟩ := idx t
  match a with
  | ⟨0, _⟩ => show win2_1.index t (0 : Fin 2) * 8192 + 1 * (j 0).val = (j 0).val; rw [e0]; omega
  | ⟨1, _⟩ => show win2_1.index t (1 : Fin 2) * 256 + 1 * (j 1).val = (j 1).val; rw [e1]; omega

theorem blk_2 (c : Dev nD) (t : Fin cfg2.N) : iblk2 V c 2 t = V c main_v2 := by
  funext j
  show V c main_v2 (((cfg2.win 2).blk t).view.emb j) = V c main_v2 j
  congr 1
  funext a; apply Fin.ext
  obtain ⟨-, -, -, -, e0, e1, -⟩ := idx t
  match a with
  | ⟨0, _⟩ => show win2_2.index t (0 : Fin 2) * 1 + 1 * (j 0).val = (j 0).val; rw [e0]; omega
  | ⟨1, _⟩ => show win2_2.index t (1 : Fin 2) * 256 + 1 * (j 1).val = (j 1).val; rw [e1]; omega

theorem blk_3 (c : Dev nD) (t : Fin cfg2.N) : iblk2 V c 3 t = V c main_arg9 := by
  funext j
  show V c main_arg9 (((cfg2.win 3).blk t).view.emb j) = V c main_arg9 j
  congr 1
  funext a; apply Fin.ext
  obtain ⟨-, -, -, -, -, -, e0, e1, -⟩ := idx t
  match a with
  | ⟨0, _⟩ => show win2_3.index t (0 : Fin 2) * 256 + 1 * (j 0).val = (j 0).val; rw [e0]; omega
  | ⟨1, _⟩ => show win2_3.index t (1 : Fin 2) * 128 + 1 * (j 1).val = (j 1).val; rw [e1]; omega

/-! ## The result block -/

/-- Reading a whole-array function through point t's block of the result takes its rows 256·t …. -/
theorem read_4 (t : Fin cfg2.N) (G : Arr 8192 128) : ((cfg2.win 4).blk t).view.read (Elt Ideal) G = rows (rowOf t) G := by
  funext j
  show G (((cfg2.win 4).blk t).view.emb j) = G (ix2 (rowOf t (j 0)) (j 1))
  congr 1
  funext a; apply Fin.ext
  obtain ⟨-, -, -, -, -, -, -, -, e0, e1⟩ := idx t
  match a with
  | ⟨0, _⟩ => show win2_4.index t (0 : Fin 2) * 256 + 1 * (j 0).val = t.val * 256 + (j 0).val; rw [e0]; omega
  | ⟨1, _⟩ => show win2_4.index t (1 : Fin 2) * 128 + 1 * (j 1).val = (j 1).val; rw [e1]; omega

/-! ## The row blocks tile the result -/

theorem mem_blk_4 (t : Fin cfg2.N) (i : S8192x128.Idx) :
    i ∈ ((cfg2.win 4).blk t).view.set ↔ ∀ a : Fin 2, win2_4.index t a * S256x128.size a ≤ (i a).val ∧ (i a).val < win2_4.index t a * S256x128.size a + S256x128.size a := by
  show i ∈ ((View.whole main_v8).slice (win2_4.rect t)).set ↔ _
  rw [View.set_slice_whole, Rect.mem_set_unit]
  exact Iff.rfl

/-- Row r of the result lies in the block of point r / 256. -/
theorem cover_4 (i : S8192x128.Idx) : ∃ t : Fin cfg2.N, (cfg2.win 4).flush t = true ∧ i ∈ ((cfg2.win 4).blk t).view.set := by
  have hi0 : (i 0).val < 8192 := (i 0).isLt
  have hi1 : (i 1).val < 128 := (i 1).isLt
  obtain ⟨t, ht⟩ := onto ⟨(i 0).val / 256, by omega⟩
  have ht' : t.val = (i 0).val / 256 := ht
  refine ⟨t, flush2_4 t, ?_⟩
  rw [mem_blk_4]
  obtain ⟨-, -, -, -, -, -, -, -, e0, e1⟩ := idx t
  intro a
  match a with
  | ⟨0, _⟩ => show win2_4.index t (0 : Fin 2) * 256 ≤ (i 0).val ∧ (i 0).val < win2_4.index t (0 : Fin 2) * 256 + 256; rw [e0]; omega
  | ⟨1, _⟩ => show win2_4.index t (1 : Fin 2) * 128 ≤ (i 1).val ∧ (i 1).val < win2_4.index t (1 : Fin 2) * 128 + 128; rw [e1]; omega

/-- What the result holds in the end: the rectified layer of the adjacency against the first support, times the
    second graph weight. -/
abbrev G4 (c : Dev nD) : Arr 8192 128 := hiddenProd (V c main_arg2) (V c main_v6_1) (V c main_v2) (V c main_arg9)

section
variable (hpay : ∀ (v0 : Vec Ideal S256x8192 .f32) (v1 : Vec Ideal S8192x256 .f32) (v4 : Vec Ideal S1x256 .f32)
    (v10 : Vec Ideal S256x128 .f32), k2_pay1 (F := Ideal) v0 v1 v4 v10 = hiddenProd v0 v1 v4 v10)
include hpay

/-- What point t writes back is rows 256·t … of `G4`. -/
theorem flushed_4 (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4, read_4]
  unfold out2_4
  rw [View.canon_unit_zero hz]
  simp only [View.ld_unit_zero (S := S256x8192) hz, View.ld_unit_zero (S := S8192x256) hz, View.ld_unit_zero (S := S1x256) hz,
    View.ld_unit_zero (S := S256x128) hz]
  rw [blk_0 V c t, blk_1 V c t, blk_2 V c t, blk_3 V c t, hpay, rows_hiddenProd]
  rfl

/-- The result array after the call. -/
theorem final_4 (c : Dev nD) : (dat2 V c).arrAt 4 cfg2.N = G4 V c :=
  (dat2 V c).arrAt_eq_of_cover 4 (G4 V c) (fun t _ => flushed_4 V hpay c t) cover_4
end

end Cert.Net.Region2
end
-- ==== Proof.NetRegion3.lean ====
/-
  The fourth pallas_call, array by array. Its grid has 32 points; point t stages rows 256·t … 256·t + 255 of the
  adjacency array and of the semantic-branch array, and the whole of the second support array, a bias row and the
  sequence-branch array. It writes back (1) the same rows of the structure-branch result — the rectified layer of the
  adjacency rows against the support — and (2) COLUMNS 256·t … 256·t + 255 of the prediction array: the logistic
  scores of every sequence row against the staged node rows, a node row being its semantic row and its structure row
  side by side. Each node's row is a function of that node's adjacency row and semantic row alone, so (1) is rows
  256·t … of ONE function of the whole arrays, and (2) is columns 256·t … of the scores against ALL node rows. The 32
  row blocks tile the first result and the 32 column blocks tile the second.
  The body's arithmetic enters as hypotheses (`hpay1`, `hpay2`).
-/
import proofs.«109707_g57251914055972_cont_9to1_m_423_2_alg».proof.Proof.Gen.KernelIdeal.Frame
import proofs.«109707_g57251914055972_cont_9to1_m_423_2_alg».proof.Proof.NetSpec
import Idealize.ShloMosaic.Lib.Pipeline.Value

set_option maxRecDepth 16384

noncomputable section

namespace Cert.Net.Region3

open Cert.KernelIdeal Cert.KernelIdeal.Gen Idealize.ShloMosaic Idealize.ShloMosaic.TcCoe Idealize.SL.Sem Idealize.ShloMosaic.ValueIdx
open Idealize.ShloMosaic.Pipeline (Dat)
open Cert.Net Cert.LibAffine

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window sits at block (t, 0), the column-blocked result at block
    (0, t), the others at block (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = t.val :=
  (by decide +kernel : ∀ t : Fin grid3.N, _)

/-- Every block position is some point's. -/
theorem onto : ∀ q : Fin 32, ∃ t : Fin cfg3.N, t.val = q.val :=
  (by decide +kernel : ∀ q : Fin 32, ∃ t : Fin grid3.N, t.val = q.val)

theorem t_lt (t : Fin cfg3.N) : t.val < 32 := lt_of_lt_of_eq t.isLt N_3

/-- Node p of point t's block is node 256·t + p. -/
def rowOf (t : Fin cfg3.N) (p : Fin 256) : Fin 8192 := ⟨t.val * 256 + p.val, by have := t_lt t; have := p.isLt; omega⟩

/-- Two [8192, 128] arrays side by side make an [8192, 256] array. -/
theorem hcat : Shape.Concatenates [(⟨2, ![8192, 128]⟩ : Shape), ⟨2, ![8192, 128]⟩] ⟨2, ![8192, 256]⟩ 1 := by decide

/-! ## The blocks the body loads -/

theorem blk_0 (c : Dev nD) (t : Fin cfg3.N) : iblk3 V c 0 t = rows (rowOf t) (V c main_arg2) := by
  funext j
  show V c main_arg2 (((cfg3.win 0).blk t).view.emb j) = V c main_arg2 (ix2 (rowOf t (j 0)) (j 1))
  congr 1
  funext a; apply Fin.ext
  obtain ⟨e0, e1, -⟩ := idx t
  match a with
  | ⟨0, _⟩ => show win3_0.index t (0 : Fin 2) * 256 + 1 * (j 0).val = t.val * 256 + (j 0).val; rw [e0]; omega
  | ⟨1, _⟩ => show win3_0.index t (1 : Fin 2) * 8192 + 1 * (j 1).val = (j 1).val; rw [e1]; omega

theorem blk_1 (c : Dev nD) (t : Fin cfg3.N) : iblk3 V c 1 t = V c main_v8 := by
  funext j
  show V c main_v8 (((cfg3.win 1).blk t).view.emb j) = V c main_v8 j
  congr 1
  funext a; apply Fin.ext
  obtain ⟨-, -, e0, e1, -⟩ := idx t
  match a with
  | ⟨0, _⟩ => show win3_1.index t (0 : Fin 2) * 8192 + 1 * (j 0).val = (j 0).val; rw [e0]; omega
  | ⟨1, _⟩ => show win3_1.index t (1 : Fin 2) * 128 + 1 * (j 1).val = (j 1).val; rw [e1]; omega

theorem blk_2 (c : Dev nD) (t : Fin cfg3.N) : iblk3 V c 2 t = V c main_v3 := by
  funext j
  show V c main_v3 (((cfg3.win 2).blk t).view.emb j) = V c main_v3 j
  congr 1
  funext a; apply Fin.ext
  obtain ⟨-, -, -, -, e0, e1, -⟩ := idx t
  match a with
  | ⟨0, _⟩ => show win3_2.index t (0 : Fin 2) * 1 + 1 * (j 0).val = (j 0).val; rw [e0]; omega
  | ⟨1, _⟩ => show win3_2.index t (1 : Fin 2) * 128 + 1 * (j 1).val = (j 1).val; rw [e1]; omega

theorem blk_3 (c : Dev nD) (t : Fin cfg3.N) : iblk3 V c 3 t = rows (rowOf t) (V c main_v6_0) := by
  funext j
  show V c main_v6_0 (((cfg3.win 3).blk t).view.emb j) = V c main_v6_0 (ix2 (rowOf t (j 0)) (j 1))
  congr 1
  funext a; apply Fin.ext
  obtain ⟨-, -, -, -, -, -, e0, e1, -⟩ := idx t
  match a with
  | ⟨0, _⟩ => show win3_3.index t (0 : Fin 2) * 256 + 1 * (j 0).val = t.val * 256 + (j 0).val; rw [e0]; omega
  | ⟨1, _⟩ => show win3_3.index t (1 : Fin 2) * 128 + 1 * (j 1).val = (j 1).val; rw [e1]; omega

theorem blk_4 (c : Dev nD) (t : Fin cfg3.N) : iblk3 V c 4 t = V c main_v7 := by
  funext j
  show V c main_v7 (((cfg3.win 4).blk t).view.emb j) = V c main_v7 j
  congr 1
  funext a; apply Fin.ext
  obtain ⟨-, -, -, -, -, -, -, -, e0, e1, -⟩ := idx t
  match a with
  | ⟨0, _⟩ => show win3_4.index t (0 : Fin 2) * 4096 + 1 * (j 0).val = (j 0).val; rw [e0]; omega
  | ⟨1, _⟩ => show win3_4.index t (1 : Fin 2) * 256 + 1 * (j 1).val = (j 1).val; rw [e1]; omega

/-! ## The result blocks -/

/-- Reading a whole-array function through point t's block of the first result takes its rows 256·t …. -/
theorem read_5 (t : Fin cfg3.N) (G : Arr 8192 128) : ((cfg3.win 5).blk t).view.read (Elt Ideal) G = rows (rowOf t) G := by
  funext j
  show G (((cfg3.win 5).blk t).view.emb j) = G (ix2 (rowOf t (j 0)) (j 1))
  congr 1
  funext a; apply Fin.ext
  obtain ⟨-, -, -, -, -, -, -, -, -, -, e0, e1, -⟩ := idx t
  match a with
  | ⟨0, _⟩ => show win3_5.index t (0 : Fin 2) * 256 + 1 * (j 0).val = t.val * 256 + (j 0).val; rw [e0]; omega
  | ⟨1, _⟩ => show win3_5.index t (1 : Fin 2) * 128 + 1 * (j 1).val = (j 1).val; rw [e1]; omega

/-- Reading a whole-array function through point t's block of the second result takes its columns 256·t …. -/
theorem read_6 (t : Fin cfg3.N) (G : Arr 4096 8192) : ((cfg3.win 6).blk t).view.read (Elt Ideal) G = cols (rowOf t) G := by
  funext j
  show G (((cfg3.win 6).blk t).view.emb j) = G (ix2 (j 0) (rowOf t (j 1)))
  congr 1
  funext a; apply Fin.ext
  obtain ⟨-, -, -, -, -, -, -, -, -, -, -, -, e0, e1⟩ := idx t
  match a with
  | ⟨0, _⟩ => show win3_6.index t (0 : Fin 2) * 4096 + 1 * (j 0).val = (j 0).val; rw [e0]; omega
  | ⟨1, _⟩ => show win3_6.index t (1 : Fin 2) * 256 + 1 * (j 1).val = t.val * 256 + (j 1).val; rw [e1]; omega

/-! ## The blocks tile the results -/

theorem mem_blk_5 (t : Fin cfg3.N) (i : S8192x128.Idx) :
    i ∈ ((cfg3.win 5).blk t).view.set ↔ ∀ a : Fin 2, win3_5.index t a * S256x128.size a ≤ (i a).val ∧ (i a).val < win3_5.index t a * S256x128.size a + S256x128.size a := by
  show i ∈ ((View.whole main_v9_0).slice (win3_5.rect t)).set ↔ _
  rw [View.set_slice_whole, Rect.mem_set_unit]
  exact Iff.rfl

theorem mem_blk_6 (t : Fin cfg3.N) (i : S4096x8192.Idx) :
    i ∈ ((cfg3.win 6).blk t).view.set ↔ ∀ a : Fin 2, win3_6.index t a * S4096x256.size a ≤ (i a).val ∧ (i a).val < win3_6.index t a * S4096x256.size a + S4096x256.size a := by
  show i ∈ ((View.whole main_v9_1).slice (win3_6.rect t)).set ↔ _
  rw [View.set_slice_whole, Rect.mem_set_unit]
  exact Iff.rfl

/-- Row r of the first result lies in the block of point r / 256. -/
theorem cover_5 (i : S8192x128.Idx) : ∃ t : Fin cfg3.N, (cfg3.win 5).flush t = true ∧ i ∈ ((cfg3.win 5).blk t).view.set := by
  have hi0 : (i 0).val < 8192 := (i 0).isLt
  have hi1 : (i 1).val < 128 := (i 1).isLt
  obtain ⟨t, ht⟩ := onto ⟨(i 0).val / 256, by omega⟩
  have ht' : t.val = (i 0).val / 256 := ht
  refine ⟨t, flush3_5 t, ?_⟩
  rw [mem_blk_5]
  obtain ⟨-, -, -, -, -, -, -, -, -, -, e0, e1, -⟩ := idx t
  intro a
  match a with
  | ⟨0, _⟩ => show win3_5.index t (0 : Fin 2) * 256 ≤ (i 0).val ∧ (i 0).val < win3_5.index t (0 : Fin 2) * 256 + 256; rw [e0]; omega
  | ⟨1, _⟩ => show win3_5.index t (1 : Fin 2) * 128 ≤ (i 1).val ∧ (i 1).val < win3_5.index t (1 : Fin 2) * 128 + 128; rw [e1]; omega

/-- Column q of the second result lies in the block of point q / 256. -/
theorem cover_6 (i : S4096x8192.Idx) : ∃ t : Fin cfg3.N, (cfg3.win 6).flush t = true ∧ i ∈ ((cfg3.win 6).blk t).view.set := by
  have hi0 : (i 0).val < 4096 := (i 0).isLt
  have hi1 : (i 1).val < 8192 := (i 1).isLt
  obtain ⟨t, ht⟩ := onto ⟨(i 1).val / 256, by omega⟩
  have ht' : t.val = (i 1).val / 256 := ht
  refine ⟨t, flush3_6 t, ?_⟩
  rw [mem_blk_6]
  obtain ⟨-, -, -, -, -, -, -, -, -, -, -, -, e0, e1⟩ := idx t
  intro a
  match a with
  | ⟨0, _⟩ => show win3_6.index t (0 : Fin 2) * 4096 ≤ (i 0).val ∧ (i 0).val < win3_6.index t (0 : Fin 2) * 4096 + 4096; rw [e0]; omega
  | ⟨1, _⟩ => show win3_6.index t (1 : Fin 2) * 256 ≤ (i 1).val ∧ (i 1).val < win3_6.index t (1 : Fin 2) * 256 + 256; rw [e1]; omega

/-- What the first result holds in the end: the rectified layer of the adjacency against the second support. -/
abbrev G5 (c : Dev nD) : Arr 8192 128 := rowAffineFloor zero (V c main_arg2) (V c main_v8) (V c main_v3)
/-- What the second result holds in the end: the scores of the sequence rows against the node rows, a node row being
    its semantic row and its structure row side by side. -/
abbrev G6 (c : Dev nD) : Arr 4096 8192 := scores (V c main_v7) (join hcat (V c main_v6_0) (G5 V c))

section
variable (hpay1 : ∀ (v0 : Vec Ideal S256x8192 .f32) (v1 : Vec Ideal S8192x128 .f32) (v4 : Vec Ideal S1x128 .f32),
    k3_pay1 (F := Ideal) v0 v1 v4 = rowAffineFloor zero v0 v1 v4)
variable (hpay2 : ∀ (v0 : Vec Ideal S256x8192 .f32) (v1 : Vec Ideal S8192x128 .f32) (v4 : Vec Ideal S1x128 .f32)
    (v11 : Vec Ideal S256x128 .f32) (v14 : Vec Ideal S4096x256 .f32),
    k3_pay2 (F := Ideal) v0 v1 v4 v11 v14 = scores v14 (join concatenates_S256x128_S256x128_S256x256_d1 v11 (rowAffineFloor zero v0 v1 v4)))

include hpay1 in
/-- What point t writes back to the first result is rows 256·t … of `G5`. -/
theorem flushed_5 (c : Dev nD) (t : Fin cfg3.N) :
    (dat3 V c).flushed 5 t = ((cfg3.win 5).blk t).view.read (Elt Ideal) (G5 V c) := by
  show (cfg3.win 5).cut (grid3.coords t) ((dat3 V c).after 5 t) = _
  rw [after3_5, read_5]
  unfold out3_5
  rw [View.canon_unit_zero hz]
  simp only [View.ld_unit_zero (S := S256x8192) hz, View.ld_unit_zero (S := S8192x128) hz, View.ld_unit_zero (S := S1x128) hz]
  rw [blk_0 V c t, blk_1 V c t, blk_2 V c t, hpay1, rows_rowAffineFloor]
  rfl

include hpay2 in
/-- What point t writes back to the second result is columns 256·t … of `G6`. -/
theorem flushed_6 (c : Dev nD) (t : Fin cfg3.N) :
    (dat3 V c).flushed 6 t = ((cfg3.win 6).blk t).view.read (Elt Ideal) (G6 V c) := by
  show (cfg3.win 6).cut (grid3.coords t) ((dat3 V c).after 6 t) = _
  rw [after3_6, read_6]
  unfold out3_6
  rw [View.canon_unit_zero hz]
  simp only [View.ld_unit_zero (S := S256x8192) hz, View.ld_unit_zero (S := S8192x128) hz, View.ld_unit_zero (S := S1x128) hz,
    View.ld_unit_zero (S := S256x128) hz, View.ld_unit_zero (S := S4096x256) hz]
  rw [blk_0 V c t, blk_1 V c t, blk_2 V c t, blk_3 V c t, blk_4 V c t, hpay2, rows_rowAffineFloor,
    rows_join (rowOf t) hcat concatenates_S256x128_S256x128_S256x256_d1, scores_rows]
  rfl

include hpay1 in
/-- The first result array after the call. -/
theorem final_5 (c : Dev nD) : (dat3 V c).arrAt 5 cfg3.N = G5 V c :=
  (dat3 V c).arrAt_eq_of_cover 5 (G5 V c) (fun t _ => flushed_5 V hpay1 c t) cover_5

include hpay2 in
/-- The second result array after the call. -/
theorem final_6 (c : Dev nD) : (dat3 V c).arrAt 6 cfg3.N = G6 V c :=
  (dat3 V c).arrAt_eq_of_cover 6 (G6 V c) (fun t _ => flushed_6 V hpay2 c t) cover_6
end

end Cert.Net.Region3
end
-- ==== Proof.NetRun.lean ====
/-
  The kernel program's three results as functions of its argument arrays, over the extended reals.

  The program is six host reshapes (each bias vector of length N recast as a [1, N] row) followed by four pallas_calls.
  Its run is read boundary by boundary: after the reshapes every argument array is as launched and each row buffer
  holds its vector recast; each pallas_call leaves its result arrays at one whole-array function of the arrays it
  found (the region modules), every array it only reads as it found it, and every other buffer untouched. Walking the
  results back through the boundaries gives, with X · W the plain product, r a bias row and max (·, 0) entry by entry:

    first call   h_semantic = max (go · mw1 + mb1, 0) · mw2 + mb2      and  s1 = go · gw1
    second call  seq_out    = max (seq · fw1 + fb1, 0) · fw2 + fb2
    third call   s2         = max (adj · s1 + gb1, 0) · gw2
    fourth call  h_structure = max (adj · s2 + gb2, 0)   and
                 pred (p, q) = logistic (∑ k, seq_out (p, k) · C (q, k)),  C = h_semantic and h_structure side by side.
-/
import proofs.«109707_g57251914055972_cont_9to1_m_423_2_alg».proof.Proof.Gen.KernelIdeal.Frame
import proofs.«109707_g57251914055972_cont_9to1_m_423_2_alg».proof.Proof.NetSpec
import proofs.«109707_g57251914055972_cont_9to1_m_423_2_alg».proof.Proof.NetBodies
import proofs.«109707_g57251914055972_cont_9to1_m_423_2_alg».proof.Proof.NetRegion0
import proofs.«109707_g57251914055972_cont_9to1_m_423_2_alg».proof.Proof.NetRegion1
import proofs.«109707_g57251914055972_cont_9to1_m_423_2_alg».proof.Proof.NetRegion2
import proofs.«109707_g57251914055972_cont_9to1_m_423_2_alg».proof.Proof.NetRegion3
import Idealize.ShloMosaic.Lib.Pipeline.Value
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run, with the result arrays kept -/

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with each of its three result
    arrays at the contents the last region boundary gives it and every argument array as launched. -/
theorem run_named : θ_run defs (onTc (τ := τ) (main (F := F))) ⟨m, fun _ => 0, ρ⟩ (fun r => ∀ c : Dev nD,
      r.2.mem ((c.tc : Thread nD τ).loc main_v6_0) = W5 m ρ c (Proc.devRef .tc main_v6_0)
      ∧ r.2.mem ((c.tc : Thread nD τ).loc main_v9_0) = W5 m ρ c (Proc.devRef .tc main_v9_0)
      ∧ r.2.mem ((c.tc : Thread nD τ).loc main_v9_1) = W5 m ρ c (Proc.devRef .tc main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6_0 (by decide)),
       h c _ (mem_uc main_v9_0 (by decide)),
       h c _ (mem_uc main_v9_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Run

/-! ## The boundary contents, at the extended reals -/

section Values
open Cert.Net Cert.LibAffine

variable (m : (ℓ : Loc nD τ sig) → Buf (Elt Ideal) ℓ) (ρ : Dev nD → PrngReg)

/-! ### After the host reshapes: the arguments as launched, each row buffer its vector recast -/

theorem V1_arg0 (c : Dev nD) : V1 m ρ c main_arg0 = m ((c.tc : Thread nD τ).loc main_arg0) := by
  show StableHlo.after hostOps0 (W0 m ρ c) (Proc.devRef .tc main_arg0) = _
  after_results
theorem V1_arg1 (c : Dev nD) : V1 m ρ c main_arg1 = m ((c.tc : Thread nD τ).loc main_arg1) := by
  show StableHlo.after hostOps0 (W0 m ρ c) (Proc.devRef .tc main_arg1) = _
  after_results
theorem V1_arg2 (c : Dev nD) : V1 m ρ c main_arg2 = m ((c.tc : Thread nD τ).loc main_arg2) := by
  show StableHlo.after hostOps0 (W0 m ρ c) (Proc.devRef .tc main_arg2) = _
  after_results
theorem V1_arg3 (c : Dev nD) : V1 m ρ c main_arg3 = m ((c.tc : Thread nD τ).loc main_arg3) := by
  show StableHlo.after hostOps0 (W0 m ρ c) (Proc.devRef .tc main_arg3) = _
  after_results
theorem V1_arg5 (c : Dev nD) : V1 m ρ c main_arg5 = m ((c.tc : Thread nD τ).loc main_arg5) := by
  show StableHlo.after hostOps0 (W0 m ρ c) (Proc.devRef .tc main_arg5) = _
  after_results
theorem V1_arg7 (c : Dev nD) : V1 m ρ c main_arg7 = m ((c.tc : Thread nD τ).loc main_arg7) := by
  show StableHlo.after hostOps0 (W0 m ρ c) (Proc.devRef .tc main_arg7) = _
  after_results
theorem V1_arg9 (c : Dev nD) : V1 m ρ c main_arg9 = m ((c.tc : Thread nD τ).loc main_arg9) := by
  show StableHlo.after hostOps0 (W0 m ρ c) (Proc.devRef .tc main_arg9) = _
  after_results
theorem V1_arg11 (c : Dev nD) : V1 m ρ c main_arg11 = m ((c.tc : Thread nD τ).loc main_arg11) := by
  show StableHlo.after hostOps0 (W0 m ρ c) (Proc.devRef .tc main_arg11) = _
  after_results
theorem V1_arg13 (c : Dev nD) : V1 m ρ c main_arg13 = m ((c.tc : Thread nD τ).loc main_arg13) := by
  show StableHlo.after hostOps0 (W0 m ρ c) (Proc.devRef .tc main_arg13) = _
  after_results

theorem V1_v0 (c : Dev nD) : V1 m ρ c main_v0 = shapeCast S1x256 (m ((c.tc : Thread nD τ).loc main_arg4)) shapeCasts_S256_S1x256 := by
  show StableHlo.after hostOps0 (W0 m ρ c) (Proc.devRef .tc main_v0) = _
  after_results
  rfl
theorem V1_v1 (c : Dev nD) : V1 m ρ c main_v1 = shapeCast S1x128 (m ((c.tc : Thread nD τ).loc main_arg6)) shapeCasts_S128_S1x128 := by
  show StableHlo.after hostOps0 (W0 m ρ c) (Proc.devRef .tc main_v1) = _
  after_results
  rfl
theorem V1_v2 (c : Dev nD) : V1 m ρ c main_v2 = shapeCast S1x256 (m ((c.tc : Thread nD τ).loc main_arg8)) shapeCasts_S256_S1x256 := by
  show StableHlo.after hostOps0 (W0 m ρ c) (Proc.devRef .tc main_v2) = _
  after_results
  rfl
theorem V1_v3 (c : Dev nD) : V1 m ρ c main_v3 = shapeCast S1x128 (m ((c.tc : Thread nD τ).loc main_arg10)) shapeCasts_S128_S1x128 := by
  show StableHlo.after hostOps0 (W0 m ρ c) (Proc.devRef .tc main_v3) = _
  after_results
  rfl
theorem V1_v4 (c : Dev nD) : V1 m ρ c main_v4 = shapeCast S1x256 (m ((c.tc : Thread nD τ).loc main_arg12)) shapeCasts_S256_S1x256 := by
  show StableHlo.after hostOps0 (W0 m ρ c) (Proc.devRef .tc main_v4) = _
  after_results
  rfl
theorem V1_v5 (c : Dev nD) : V1 m ρ c main_v5 = shapeCast S1x256 (m ((c.tc : Thread nD τ).loc main_arg14)) shapeCasts_S256_S1x256 := by
  show StableHlo.after hostOps0 (W0 m ρ c) (Proc.devRef .tc main_v5) = _
  after_results
  rfl

/-! ### The network's arrays as functions of the launch contents -/

/-- h_semantic: two dense layers on the node features. -/
def hsem (c : Dev nD) : Arr 8192 128 :=
  twoLayer (m ((c.tc : Thread nD τ).loc main_arg1)) (m ((c.tc : Thread nD τ).loc main_arg3)) (shapeCast S1x256 (m ((c.tc : Thread nD τ).loc main_arg4)) shapeCasts_S256_S1x256)
    (m ((c.tc : Thread nD τ).loc main_arg5)) (shapeCast S1x128 (m ((c.tc : Thread nD τ).loc main_arg6)) shapeCasts_S128_S1x128)
/-- The first support: the node features times the first graph weight. -/
def support1 (c : Dev nD) : Arr 8192 256 := prod (m ((c.tc : Thread nD τ).loc main_arg1)) (m ((c.tc : Thread nD τ).loc main_arg7))
/-- The encoded sequences: two dense layers on the sequence embeddings. -/
def seqOut (c : Dev nD) : Arr 4096 256 :=
  twoLayer (m ((c.tc : Thread nD τ).loc main_arg0)) (m ((c.tc : Thread nD τ).loc main_arg11)) (shapeCast S1x256 (m ((c.tc : Thread nD τ).loc main_arg12)) shapeCasts_S256_S1x256)
    (m ((c.tc : Thread nD τ).loc main_arg13)) (shapeCast S1x256 (m ((c.tc : Thread nD τ).loc main_arg14)) shapeCasts_S256_S1x256)
/-- The second support: the first graph layer, rectified, times the second graph weight. -/
def support2 (c : Dev nD) : Arr 8192 128 :=
  hiddenProd (m ((c.tc : Thread nD τ).loc main_arg2)) (support1 m c) (shapeCast S1x256 (m ((c.tc : Thread nD τ).loc main_arg8)) shapeCasts_S256_S1x256) (m ((c.tc : Thread nD τ).loc main_arg9))
/-- h_structure: the second graph layer, rectified. -/
def hstr (c : Dev nD) : Arr 8192 128 :=
  rowAffineFloor zero (m ((c.tc : Thread nD τ).loc main_arg2)) (support2 m c) (shapeCast S1x128 (m ((c.tc : Thread nD τ).loc main_arg10)) shapeCasts_S128_S1x128)
/-- pred: the logistic scores of the encoded sequences against the node rows, semantic and structure side by side. -/
def pred (c : Dev nD) : Arr 4096 8192 := scores (seqOut m c) (join Cert.Net.Region3.hcat (hsem m c) (hstr m c))

/-! ### After the first call -/

theorem W2_hsem (c : Dev nD) : W2 m ρ c (Proc.devRef .tc main_v6_0) = hsem m c := by
  refine (W2_arr m ρ c 6).trans ((Cert.Net.Region0.final_6 (V1 m ρ) Cert.Net.Bodies.pay0_1 c).trans ?_)
  show twoLayer (V1 m ρ c main_arg1) (V1 m ρ c main_arg3) (V1 m ρ c main_v0) (V1 m ρ c main_arg5) (V1 m ρ c main_v1) = _
  rw [V1_arg1, V1_arg3, V1_v0, V1_arg5, V1_v1]
  rfl

theorem W2_support1 (c : Dev nD) : W2 m ρ c (Proc.devRef .tc main_v6_1) = support1 m c := by
  refine (W2_arr m ρ c 7).trans ((Cert.Net.Region0.final_7 (V1 m ρ) Cert.Net.Bodies.pay0_2 c).trans ?_)
  show prod (V1 m ρ c main_arg1) (V1 m ρ c main_arg7) = _
  rw [V1_arg1, V1_arg7]
  rfl

/-! ### After the second call -/

theorem V2_arg0 (c : Dev nD) : V2 m ρ c main_arg0 = m ((c.tc : Thread nD τ).loc main_arg0) :=
  (W2_of_ne m ρ c main_arg0 (by decide)).trans (V1_arg0 m ρ c)
theorem V2_arg11 (c : Dev nD) : V2 m ρ c main_arg11 = m ((c.tc : Thread nD τ).loc main_arg11) :=
  (W2_of_ne m ρ c main_arg11 (by decide)).trans (V1_arg11 m ρ c)
theorem V2_arg13 (c : Dev nD) : V2 m ρ c main_arg13 = m ((c.tc : Thread nD τ).loc main_arg13) :=
  (W2_of_ne m ρ c main_arg13 (by decide)).trans (V1_arg13 m ρ c)
theorem V2_v4 (c : Dev nD) : V2 m ρ c main_v4 = shapeCast S1x256 (m ((c.tc : Thread nD τ).loc main_arg12)) shapeCasts_S256_S1x256 :=
  (W2_of_ne m ρ c main_v4 (by decide)).trans (V1_v4 m ρ c)
theorem V2_v5 (c : Dev nD) : V2 m ρ c main_v5 = shapeCast S1x256 (m ((c.tc : Thread nD τ).loc main_arg14)) shapeCasts_S256_S1x256 :=
  (W2_of_ne m ρ c main_v5 (by decide)).trans (V1_v5 m ρ c)

theorem W3_seqOut (c : Dev nD) : W3 m ρ c (Proc.devRef .tc main_v7) = seqOut m c := by
  refine (W3_arr m ρ c 5).trans ((Cert.Net.Region1.final_5 (V2 m ρ) Cert.Net.Bodies.pay1_1 c).trans ?_)
  show twoLayer (V2 m ρ c main_arg0) (V2 m ρ c main_arg11) (V2 m ρ c main_v4) (V2 m ρ c main_arg13) (V2 m ρ c main_v5) = _
  rw [V2_arg0, V2_arg11, V2_v4, V2_arg13, V2_v5]
  rfl

/-! ### After the third call -/

theorem V3_arg2 (c : Dev nD) : V3 m ρ c main_arg2 = m ((c.tc : Thread nD τ).loc main_arg2) :=
  (W3_of_ne m ρ c main_arg2 (by decide)).trans ((W2_of_ne m ρ c main_arg2 (by decide)).trans (V1_arg2 m ρ c))
theorem V3_arg9 (c : Dev nD) : V3 m ρ c main_arg9 = m ((c.tc : Thread nD τ).loc main_arg9) :=
  (W3_of_ne m ρ c main_arg9 (by decide)).trans ((W2_of_ne m ρ c main_arg9 (by decide)).trans (V1_arg9 m ρ c))
theorem V3_v2 (c : Dev nD) : V3 m ρ c main_v2 = shapeCast S1x256 (m ((c.tc : Thread nD τ).loc main_arg8)) shapeCasts_S256_S1x256 :=
  (W3_of_ne m ρ c main_v2 (by decide)).trans ((W2_of_ne m ρ c main_v2 (by decide)).trans (V1_v2 m ρ c))
theorem V3_support1 (c : Dev nD) : V3 m ρ c main_v6_1 = support1 m c :=
  (W3_of_ne m ρ c main_v6_1 (by decide)).trans (W2_support1 m ρ c)

theorem W4_support2 (c : Dev nD) : W4 m ρ c (Proc.devRef .tc main_v8) = support2 m c := by
  refine (W4_arr m ρ c 4).trans ((Cert.Net.Region2.final_4 (V3 m ρ) Cert.Net.Bodies.pay2_1 c).trans ?_)
  show hiddenProd (V3 m ρ c main_arg2) (V3 m ρ c main_v6_1) (V3 m ρ c main_v2) (V3 m ρ c main_arg9) = _
  rw [V3_arg2, V3_support1, V3_v2, V3_arg9]
  rfl

/-! ### After the fourth call -/

theorem V4_arg2 (c : Dev nD) : V4 m ρ c main_arg2 = m ((c.tc : Thread nD τ).loc main_arg2) :=
  (W4_arr m ρ c 0).trans (((dat2 (V3 m ρ) c).arrAt_in 0 rfl _).trans ((A_eq2 (V3 m ρ) c 0).trans (V3_arg2 m ρ c)))
theorem V4_v3 (c : Dev nD) : V4 m ρ c main_v3 = shapeCast S1x128 (m ((c.tc : Thread nD τ).loc main_arg10)) shapeCasts_S128_S1x128 :=
  (W4_of_ne m ρ c main_v3 (by decide)).trans ((W3_of_ne m ρ c main_v3 (by decide)).trans
    ((W2_of_ne m ρ c main_v3 (by decide)).trans (V1_v3 m ρ c)))
theorem V4_hsem (c : Dev nD) : V4 m ρ c main_v6_0 = hsem m c :=
  (W4_of_ne m ρ c main_v6_0 (by decide)).trans ((W3_of_ne m ρ c main_v6_0 (by decide)).trans (W2_hsem m ρ c))
theorem V4_seqOut (c : Dev nD) : V4 m ρ c main_v7 = seqOut m c :=
  (W4_of_ne m ρ c main_v7 (by decide)).trans (W3_seqOut m ρ c)
theorem V4_support2 (c : Dev nD) : V4 m ρ c main_v8 = support2 m c := W4_support2 m ρ c

/-- The structure-branch result is h_structure of the launch contents. -/
theorem W5_hstr (c : Dev nD) : W5 m ρ c (Proc.devRef .tc main_v9_0) = hstr m c := by
  refine (W5_arr m ρ c 5).trans ((Cert.Net.Region3.final_5 (V4 m ρ) Cert.Net.Bodies.pay3_1 c).trans ?_)
  show rowAffineFloor zero (V4 m ρ c main_arg2) (V4 m ρ c main_v8) (V4 m ρ c main_v3) = _
  rw [V4_arg2, V4_support2, V4_v3]
  rfl

/-- The prediction result is pred of the launch contents. -/
theorem W5_pred (c : Dev nD) : W5 m ρ c (Proc.devRef .tc main_v9_1) = pred m c := by
  refine (W5_arr m ρ c 6).trans ((Cert.Net.Region3.final_6 (V4 m ρ) Cert.Net.Bodies.pay3_2 c).trans ?_)
  show scores (V4 m ρ c main_v7) (join Cert.Net.Region3.hcat (V4 m ρ c main_v6_0)
    (rowAffineFloor zero (V4 m ρ c main_arg2) (V4 m ρ c main_v8) (V4 m ρ c main_v3))) = _
  rw [V4_seqOut, V4_hsem, V4_arg2, V4_support2, V4_v3]
  rfl

/-- The semantic-branch result, which the fourth call only reads, is still h_semantic of the launch contents. -/
theorem W5_hsem (c : Dev nD) : W5 m ρ c (Proc.devRef .tc main_v6_0) = hsem m c :=
  (W5_arr m ρ c 3).trans (((dat3 (V4 m ρ) c).arrAt_in 3 rfl _).trans ((A_eq3 (V4 m ρ) c 3).trans (V4_hsem m ρ c)))

/-- The kernel program's run at the extended reals: its three results are h_semantic, h_structure and pred of the launch
    contents, and its arguments end as launched. -/
theorem run : θ_run defs (onTc (τ := τ) (main (F := Ideal))) ⟨m, fun _ => 0, ρ⟩ (fun r => ∀ c : Dev nD,
      r.2.mem ((c.tc : Thread nD τ).loc main_v6_0) = hsem m c
      ∧ r.2.mem ((c.tc : Thread nD τ).loc main_v9_0) = hstr m c
      ∧ r.2.mem ((c.tc : Thread nD τ).loc main_v9_1) = pred m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W5_hsem m ρ c), (h c).2.1.trans (W5_hstr m ρ c),
      (h c).2.2.1.trans (W5_pred m ρ c), (h c).2.2.2⟩)
    (run_named (F := Ideal) m ρ)

end Values

end Cert.KernelIdeal.Named
end
-- ==== Proof.lean ====
/-
  A two-branch graph network scored against encoded sequences: the Pallas kernel program and its jnp reference compute
  the same three arrays over the extended reals.

  With X · W the plain product (entry (p, n) is ∑ k, X (p, k) · W (k, n)), a bias added to every row and max (·, 0)
  taken entry by entry, both programs compute

    h_semantic  = max (go · mw1 + mb1, 0) · mw2 + mb2
    h_structure = max (adj · (max (adj · (go · gw1) + gb1, 0) · gw2) + gb2, 0)
    pred (p, q) = logistic (∑ k, S (p, k) · C (q, k)),  S = max (seq · fw1 + fb1, 0) · fw2 + fb2,
                                                         C = h_semantic and h_structure side by side.

  The reference computes them with whole-array host operations (NetReference). The kernel program computes them in
  four pallas_calls, each over row blocks (the last also over column blocks of pred); every sum over k is taken whole
  inside one block, in the same association as the reference, and each result row depends on one row of the blocked
  operand only, so the blocks assemble to the same whole-array functions (NetRegion0 … NetRegion3, NetRun). The two
  sides differ only in spelling — a bias row made by a reshape or by a broadcast, a product against a transposed array
  or a contraction of both second axes, the logistic function as one operation or as 1 / (1 + exp (−x)) — so the
  equality uses no law of arithmetic and the finiteness of the inputs is never used.

  The three frame claims are the generated frames (the reference's is its run with the results dropped), and the
  kernel's idealization rewrote no operation, so that claim is `True`.
-/
import proofs.«109707_g57251914055972_cont_9to1_m_423_2_alg».proof.Defs
import proofs.«109707_g57251914055972_cont_9to1_m_423_2_alg».proof.Proof.Gen.Kernel
import proofs.«109707_g57251914055972_cont_9to1_m_423_2_alg».proof.Proof.Gen.Kernel.Skeleton
import proofs.«109707_g57251914055972_cont_9to1_m_423_2_alg».proof.Proof.Gen.Kernel.Launch
import proofs.«109707_g57251914055972_cont_9to1_m_423_2_alg».proof.Proof.Gen.Kernel.Points
import proofs.«109707_g57251914055972_cont_9to1_m_423_2_alg».proof.Proof.Gen.Kernel.Frame
import proofs.«109707_g57251914055972_cont_9to1_m_423_2_alg».proof.Proof.Gen.KernelIdeal
import proofs.«109707_g57251914055972_cont_9to1_m_423_2_alg».proof.Proof.Gen.KernelIdeal.Skeleton
import proofs.«109707_g57251914055972_cont_9to1_m_423_2_alg».proof.Proof.Gen.KernelIdeal.Launch
import proofs.«109707_g57251914055972_cont_9to1_m_423_2_alg».proof.Proof.Gen.KernelIdeal.Points
import proofs.«109707_g57251914055972_cont_9to1_m_423_2_alg».proof.Proof.Gen.KernelIdeal.Frame
import proofs.«109707_g57251914055972_cont_9to1_m_423_2_alg».proof.Proof.Gen.ReferenceIdeal
import proofs.«109707_g57251914055972_cont_9to1_m_423_2_alg».proof.Proof.Gen.Pre_finite_inputs
import proofs.«109707_g57251914055972_cont_9to1_m_423_2_alg».proof.Proof.RefRun
import proofs.«109707_g57251914055972_cont_9to1_m_423_2_alg».proof.Proof.NetReference
import proofs.«109707_g57251914055972_cont_9to1_m_423_2_alg».proof.Proof.NetRun
import Idealize.ShloMosaic.Adequacy
import Idealize.ShloMosaic.Init

noncomputable section

namespace Cert.Proof

open Idealize.ShloMosaic Idealize.ShloMosaic.TcCoe Idealize.SL.Sem
open Cert.Net Cert.Net.Reference Cert.KernelIdeal.Named

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.RunP.run (F := Ideal) m ρ)

/-- The idealization rewrote no operation. -/
theorem preserves : Cert.preserves_Kernel_KernelIdeal := trivial

/-- Both programs end with h_semantic, h_structure and pred of arguments that agree. -/
theorem algebraic : Cert.algebraic_KernelIdeal_ReferenceIdeal := by
  intro m ρ m' ρ' _ hagree
  refine ⟨fun c => hsem m c, fun c => hstr m c, fun c => pred m c, Cert.KernelIdeal.Named.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.RunP.run (F := Ideal) m' ρ')
  · obtain ⟨a0, a1, a2, a3, a4, a5, a6, a7, a8, a9, a10, a11, a12, a13, a14⟩ := hagree c
    rw [a1, a3, a4, a5, a6]
    exact refHsem_eq Cert.KernelIdeal.Facts₀.shapeCasts_S256_S1x256 Cert.KernelIdeal.Facts₀.shapeCasts_S128_S1x128
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
  · obtain ⟨a0, a1, a2, a3, a4, a5, a6, a7, a8, a9, a10, a11, a12, a13, a14⟩ := hagree c
    rw [a1, a2, a7, a8, a9, a10]
    exact refHstr_eq Cert.KernelIdeal.Facts₀.shapeCasts_S256_S1x256 Cert.KernelIdeal.Facts₀.shapeCasts_S128_S1x128
      (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  · obtain ⟨a0, a1, a2, a3, a4, a5, a6, a7, a8, a9, a10, a11, a12, a13, a14⟩ := hagree c
    rw [a0, a1, a2, a3, a4, a5, a6, a7, a8, a9, a10, a11, a12, a13, a14]
    refine (refPred_eq Cert.KernelIdeal.Facts₀.shapeCasts_S256_S1x256 Cert.Net.Region3.hcat
      (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      (refHsem (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (refHstr (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))).trans ?_
    rw [refHsem_eq Cert.KernelIdeal.Facts₀.shapeCasts_S256_S1x256 Cert.KernelIdeal.Facts₀.shapeCasts_S128_S1x128,
      refHstr_eq Cert.KernelIdeal.Facts₀.shapeCasts_S256_S1x256 Cert.KernelIdeal.Facts₀.shapeCasts_S128_S1x128]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
